-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 64
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S1x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x128, .f32⟩
  | 117 => ⟨S1700000x1, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program's run with its result kept: every weakly fair execution of @main terminates, nothing
  faults, the argument arrays end as launched, and the result buffer ends at the contents the last region leaves,
  `W11 … main_v43`: the fold of @main's eleven segments (six stretches of host operations, five kernel regions) over
  the launch memory. The final thread state holds every unscoped buffer at that fold; the result buffer is one of them.
-/
import proofs.«169896_j60378650247170_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch of the eleven segments, the last thread state read against the final state, the result
    buffer and each argument among the unscoped buffers. -/
theorem run : θ_run defs (onTc (τ := τ) (main (F := F))) ⟨m, fun _ => 0, ρ⟩ (fun r => ∀ c : Dev nD,
      r.2.mem ((c.tc : Thread nD τ).loc main_v43) = W11 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v43 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.KRun

end
-- ==== Proof.KKeep.lean ====
/-
  Which buffers the segments of the kernel program's @main leave alone. @main is eleven segments (host stretches and
  kernel regions); `W k` is a core's buffer contents at the k-th boundary. A host stretch leaves every buffer it
  does not write; a region leaves every buffer that is not one of its arrays, and an array it only reads ends as it
  was entered. So an argument array, the two word lists and the column of node factors, once computed, are the same
  at every later boundary where they are read.
-/
import proofs.«169896_j60378650247170_2_alg».proof.Proof.Gen.KernelIdeal.Frame

set_option maxRecDepth 16384

noncomputable section

namespace Cert.KernelIdeal.KChain

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

theorem step1_main_arg0 : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg0 : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg0 : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg0` at boundary 3 is what it was at boundary 0: no segment in between writes it. -/
theorem keep3_main_arg0 : W3 m ρ c (Proc.devRef .tc main_arg0) = m ((c : Thread nD τ).loc main_arg0) :=
  (((step3_main_arg0 m ρ c).trans (step2_main_arg0 m ρ c)).trans (step1_main_arg0 m ρ c)).trans (show W0 m ρ c (Proc.devRef .tc main_arg0) = m ((c : Thread nD τ).loc main_arg0) from rfl)
theorem step1_main_arg1 : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg1 : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg1 : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg1` at boundary 3 is what it was at boundary 0: no segment in between writes it. -/
theorem keep3_main_arg1 : W3 m ρ c (Proc.devRef .tc main_arg1) = m ((c : Thread nD τ).loc main_arg1) :=
  (((step3_main_arg1 m ρ c).trans (step2_main_arg1 m ρ c)).trans (step1_main_arg1 m ρ c)).trans (show W0 m ρ c (Proc.devRef .tc main_arg1) = m ((c : Thread nD τ).loc main_arg1) from rfl)
theorem step1_main_arg2 : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg2 : W2 m ρ c (Proc.devRef .tc main_arg2) = W1 m ρ c (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg2 : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step4_main_arg2 : W4 m ρ c (Proc.devRef .tc main_arg2) = W3 m ρ c (Proc.devRef .tc main_arg2) :=
  W4_of_ne m ρ c main_arg2 (by decide)
/-- `main_arg2` at boundary 4 is what it was at boundary 0: no segment in between writes it. -/
theorem keep4_main_arg2 : W4 m ρ c (Proc.devRef .tc main_arg2) = m ((c : Thread nD τ).loc main_arg2) :=
  ((((step4_main_arg2 m ρ c).trans (step3_main_arg2 m ρ c)).trans (step2_main_arg2 m ρ c)).trans (step1_main_arg2 m ρ c)).trans (show W0 m ρ c (Proc.devRef .tc main_arg2) = m ((c : Thread nD τ).loc main_arg2) from rfl)
theorem step1_main_arg3 : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg3 : W2 m ρ c (Proc.devRef .tc main_arg3) = W1 m ρ c (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg3 : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step4_main_arg3 : W4 m ρ c (Proc.devRef .tc main_arg3) = W3 m ρ c (Proc.devRef .tc main_arg3) :=
  W4_of_ne m ρ c main_arg3 (by decide)
theorem step5_main_arg3 : W5 m ρ c (Proc.devRef .tc main_arg3) = W4 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_arg3 : W6 m ρ c (Proc.devRef .tc main_arg3) = W5 m ρ c (Proc.devRef .tc main_arg3) :=
  W6_of_ne m ρ c main_arg3 (by decide)
/-- `main_arg3` at boundary 6 is what it was at boundary 0: no segment in between writes it. -/
theorem keep6_main_arg3 : W6 m ρ c (Proc.devRef .tc main_arg3) = m ((c : Thread nD τ).loc main_arg3) :=
  ((((((step6_main_arg3 m ρ c).trans (step5_main_arg3 m ρ c)).trans (step4_main_arg3 m ρ c)).trans (step3_main_arg3 m ρ c)).trans (step2_main_arg3 m ρ c)).trans (step1_main_arg3 m ρ c)).trans (show W0 m ρ c (Proc.devRef .tc main_arg3) = m ((c : Thread nD τ).loc main_arg3) from rfl)
theorem step1_main_arg4 : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg4 : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg4 : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step4_main_arg4 : W4 m ρ c (Proc.devRef .tc main_arg4) = W3 m ρ c (Proc.devRef .tc main_arg4) :=
  W4_of_ne m ρ c main_arg4 (by decide)
theorem step5_main_arg4 : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_arg4 : W6 m ρ c (Proc.devRef .tc main_arg4) = W5 m ρ c (Proc.devRef .tc main_arg4) :=
  W6_of_ne m ρ c main_arg4 (by decide)
theorem step7_main_arg4 : W7 m ρ c (Proc.devRef .tc main_arg4) = W6 m ρ c (Proc.devRef .tc main_arg4) :=
  W7_of_ne m ρ c main_arg4 (by decide)
/-- `main_arg4` at boundary 7 is what it was at boundary 0: no segment in between writes it. -/
theorem keep7_main_arg4 : W7 m ρ c (Proc.devRef .tc main_arg4) = m ((c : Thread nD τ).loc main_arg4) :=
  (((((((step7_main_arg4 m ρ c).trans (step6_main_arg4 m ρ c)).trans (step5_main_arg4 m ρ c)).trans (step4_main_arg4 m ρ c)).trans (step3_main_arg4 m ρ c)).trans (step2_main_arg4 m ρ c)).trans (step1_main_arg4 m ρ c)).trans (show W0 m ρ c (Proc.devRef .tc main_arg4) = m ((c : Thread nD τ).loc main_arg4) from rfl)
theorem step1_main_arg5 : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg5 : W2 m ρ c (Proc.devRef .tc main_arg5) = W1 m ρ c (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg5 : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step4_main_arg5 : W4 m ρ c (Proc.devRef .tc main_arg5) = W3 m ρ c (Proc.devRef .tc main_arg5) :=
  W4_of_ne m ρ c main_arg5 (by decide)
theorem step5_main_arg5 : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_arg5 : W6 m ρ c (Proc.devRef .tc main_arg5) = W5 m ρ c (Proc.devRef .tc main_arg5) :=
  W6_of_ne m ρ c main_arg5 (by decide)
theorem step7_main_arg5 : W7 m ρ c (Proc.devRef .tc main_arg5) = W6 m ρ c (Proc.devRef .tc main_arg5) :=
  W7_of_ne m ρ c main_arg5 (by decide)
theorem step8_main_arg5 : W8 m ρ c (Proc.devRef .tc main_arg5) = W7 m ρ c (Proc.devRef .tc main_arg5) :=
  StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step9_main_arg5 : W9 m ρ c (Proc.devRef .tc main_arg5) = W8 m ρ c (Proc.devRef .tc main_arg5) :=
  W9_of_ne m ρ c main_arg5 (by decide)
theorem step10_main_arg5 : W10 m ρ c (Proc.devRef .tc main_arg5) = W9 m ρ c (Proc.devRef .tc main_arg5) :=
  StableHlo.after_of_forall_not_mem (b := Proc.devRef .tc main_arg5) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_arg5` at boundary 10 is what it was at boundary 0: no segment in between writes it. -/
theorem keep10_main_arg5 : W10 m ρ c (Proc.devRef .tc main_arg5) = m ((c : Thread nD τ).loc main_arg5) :=
  ((((((((((step10_main_arg5 m ρ c).trans (step9_main_arg5 m ρ c)).trans (step8_main_arg5 m ρ c)).trans (step7_main_arg5 m ρ c)).trans (step6_main_arg5 m ρ c)).trans (step5_main_arg5 m ρ c)).trans (step4_main_arg5 m ρ c)).trans (step3_main_arg5 m ρ c)).trans (step2_main_arg5 m ρ c)).trans (step1_main_arg5 m ρ c)).trans (show W0 m ρ c (Proc.devRef .tc main_arg5) = m ((c : Thread nD τ).loc main_arg5) from rfl)
theorem step1_main_arg6 : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step2_main_arg6 : W2 m ρ c (Proc.devRef .tc main_arg6) = W1 m ρ c (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step3_main_arg6 : W3 m ρ c (Proc.devRef .tc main_arg6) = W2 m ρ c (Proc.devRef .tc main_arg6) :=
  StableHlo.after_of_forall_not_mem (b := Proc.devRef .tc main_arg6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step4_main_arg6 : W4 m ρ c (Proc.devRef .tc main_arg6) = W3 m ρ c (Proc.devRef .tc main_arg6) :=
  W4_of_ne m ρ c main_arg6 (by decide)
theorem step5_main_arg6 : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_arg6 : W6 m ρ c (Proc.devRef .tc main_arg6) = W5 m ρ c (Proc.devRef .tc main_arg6) :=
  W6_of_ne m ρ c main_arg6 (by decide)
theorem step7_main_arg6 : W7 m ρ c (Proc.devRef .tc main_arg6) = W6 m ρ c (Proc.devRef .tc main_arg6) :=
  W7_of_ne m ρ c main_arg6 (by decide)
theorem step8_main_arg6 : W8 m ρ c (Proc.devRef .tc main_arg6) = W7 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step9_main_arg6 : W9 m ρ c (Proc.devRef .tc main_arg6) = W8 m ρ c (Proc.devRef .tc main_arg6) :=
  W9_of_ne m ρ c main_arg6 (by decide)
/-- `main_arg6` at boundary 9 is what it was at boundary 0: no segment in between writes it. -/
theorem keep9_main_arg6 : W9 m ρ c (Proc.devRef .tc main_arg6) = m ((c : Thread nD τ).loc main_arg6) :=
  (((((((((step9_main_arg6 m ρ c).trans (step8_main_arg6 m ρ c)).trans (step7_main_arg6 m ρ c)).trans (step6_main_arg6 m ρ c)).trans (step5_main_arg6 m ρ c)).trans (step4_main_arg6 m ρ c)).trans (step3_main_arg6 m ρ c)).trans (step2_main_arg6 m ρ c)).trans (step1_main_arg6 m ρ c)).trans (show W0 m ρ c (Proc.devRef .tc main_arg6) = m ((c : Thread nD τ).loc main_arg6) from rfl)
theorem step4_main_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem step5_main_v15 : W5 m ρ c (Proc.devRef .tc main_v15) = W4 m ρ c (Proc.devRef .tc main_v15) :=
  StableHlo.after_of_forall_not_mem (b := Proc.devRef .tc main_v15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem step7_main_v15 : W7 m ρ c (Proc.devRef .tc main_v15) = W6 m ρ c (Proc.devRef .tc main_v15) :=
  (W7_arr m ρ c 2).trans (((dat2 (V6 m ρ) c).arrAt_in 2 rfl _).trans (A_eq2 (V6 m ρ) c 2))
theorem step8_main_v15 : W8 m ρ c (Proc.devRef .tc main_v15) = W7 m ρ c (Proc.devRef .tc main_v15) :=
  StableHlo.after_of_forall_not_mem (b := Proc.devRef .tc main_v15) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v15` at boundary 5 is what it was at boundary 3: no segment in between writes it. -/
theorem keep5_main_v15 : W5 m ρ c (Proc.devRef .tc main_v15) = W3 m ρ c (Proc.devRef .tc main_v15) :=
  ((step5_main_v15 m ρ c).trans (step4_main_v15 m ρ c))
/-- `main_v15` at boundary 6 is what it was at boundary 3: no segment in between writes it. -/
theorem keep6_main_v15 : W6 m ρ c (Proc.devRef .tc main_v15) = W3 m ρ c (Proc.devRef .tc main_v15) :=
  (((step6_main_v15 m ρ c).trans (step5_main_v15 m ρ c)).trans (step4_main_v15 m ρ c))
/-- `main_v15` at boundary 8 is what it was at boundary 3: no segment in between writes it. -/
theorem keep8_main_v15 : W8 m ρ c (Proc.devRef .tc main_v15) = W3 m ρ c (Proc.devRef .tc main_v15) :=
  (((((step8_main_v15 m ρ c).trans (step7_main_v15 m ρ c)).trans (step6_main_v15 m ρ c)).trans (step5_main_v15 m ρ c)).trans (step4_main_v15 m ρ c))
theorem step4_main_v5 : W4 m ρ c (Proc.devRef .tc main_v5) = W3 m ρ c (Proc.devRef .tc main_v5) :=
  W4_of_ne m ρ c main_v5 (by decide)
theorem step5_main_v5 : W5 m ρ c (Proc.devRef .tc main_v5) = W4 m ρ c (Proc.devRef .tc main_v5) :=
  StableHlo.after_of_forall_not_mem (b := Proc.devRef .tc main_v5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_v5 : W6 m ρ c (Proc.devRef .tc main_v5) = W5 m ρ c (Proc.devRef .tc main_v5) :=
  W6_of_ne m ρ c main_v5 (by decide)
theorem step7_main_v5 : W7 m ρ c (Proc.devRef .tc main_v5) = W6 m ρ c (Proc.devRef .tc main_v5) :=
  W7_of_ne m ρ c main_v5 (by decide)
/-- `main_v5` at boundary 4 is what it was at boundary 3: no segment in between writes it. -/
theorem keep4_main_v5 : W4 m ρ c (Proc.devRef .tc main_v5) = W3 m ρ c (Proc.devRef .tc main_v5) :=
  (step4_main_v5 m ρ c)
/-- `main_v5` at boundary 7 is what it was at boundary 3: no segment in between writes it. -/
theorem keep7_main_v5 : W7 m ρ c (Proc.devRef .tc main_v5) = W3 m ρ c (Proc.devRef .tc main_v5) :=
  ((((step7_main_v5 m ρ c).trans (step6_main_v5 m ρ c)).trans (step5_main_v5 m ρ c)).trans (step4_main_v5 m ρ c))
theorem step4_main_v6 : W4 m ρ c (Proc.devRef .tc main_v6) = W3 m ρ c (Proc.devRef .tc main_v6) :=
  W4_of_ne m ρ c main_v6 (by decide)
theorem step5_main_v6 : W5 m ρ c (Proc.devRef .tc main_v6) = W4 m ρ c (Proc.devRef .tc main_v6) :=
  StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem step6_main_v6 : W6 m ρ c (Proc.devRef .tc main_v6) = W5 m ρ c (Proc.devRef .tc main_v6) :=
  W6_of_ne m ρ c main_v6 (by decide)
theorem step7_main_v6 : W7 m ρ c (Proc.devRef .tc main_v6) = W6 m ρ c (Proc.devRef .tc main_v6) :=
  W7_of_ne m ρ c main_v6 (by decide)
/-- `main_v6` at boundary 4 is what it was at boundary 3: no segment in between writes it. -/
theorem keep4_main_v6 : W4 m ρ c (Proc.devRef .tc main_v6) = W3 m ρ c (Proc.devRef .tc main_v6) :=
  (step4_main_v6 m ρ c)
/-- `main_v6` at boundary 7 is what it was at boundary 3: no segment in between writes it. -/
theorem keep7_main_v6 : W7 m ρ c (Proc.devRef .tc main_v6) = W3 m ρ c (Proc.devRef .tc main_v6) :=
  ((((step7_main_v6 m ρ c).trans (step6_main_v6 m ρ c)).trans (step5_main_v6 m ρ c)).trans (step4_main_v6 m ρ c))
theorem step10_main_v41 : W10 m ρ c (Proc.devRef .tc main_v41) = W9 m ρ c (Proc.devRef .tc main_v41) :=
  StableHlo.after_of_forall_not_mem (b := Proc.devRef .tc main_v41) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- `main_v41` at boundary 10 is what it was at boundary 9: no segment in between writes it. -/
theorem keep10_main_v41 : W10 m ρ c (Proc.devRef .tc main_v41) = W9 m ρ c (Proc.devRef .tc main_v41) :=
  (step10_main_v41 m ρ c)

end Cert.KernelIdeal.KChain

end
-- ==== Proof.Spec.lean ====
/-
  The three per-row computations of a two-layer graph convolution, each as one function of whole arrays over the
  extended reals, entry by entry.

  * `scaledRows X W v`: row `p` of `X` times the matrix `W`, every entry of the product row scaled by the
    row's own factor `v p`:  (0 + Σ_k X[p,k]·W[k,q]) · v[p,0].
  * `scaleBiasRelu A v b`: entry `(p,q)` of `A` scaled by the row factor, plus the column's bias, cut off
    below at zero:  max (A[p,q]·v[p,0] + b[0,q]) 0.
  * `rowsBias X W b`: row `p` of `X` times `W`, plus the column's bias:  (0 + Σ_k X[p,k]·W[k,q]) + b[0,q].

  The leading `0 +` is the zero accumulator the matrix product is added into.
-/
import Idealize.ShloMosaic.PureOps.Ideal
import Idealize.ShloMosaic.Lib.ValueIdx

noncomputable section

namespace Cert.Spec

open Idealize.ShloMosaic Idealize.ShloMosaic.ValueIdx

/-- Rows of `X` times `W`, each product row scaled by its row's factor. -/
def scaledRows {D : Nat} (X : (⟨2, ![100000, 128]⟩ : Shape).Idx → EReal) (W : (⟨2, ![128, D]⟩ : Shape).Idx → EReal)
    (v : (⟨2, ![100000, 1]⟩ : Shape).Idx → EReal) : (⟨2, ![100000, D]⟩ : Shape).Idx → EReal :=
  fun i => (0 + ∑ k : Fin 128, X (ix2 (i 0) k) * W (ix2 k (i 1))) * v (ix2 (i 0) (0 : Fin 1))

/-- Every entry scaled by its row's factor, the column's bias added, the result cut off below at zero. -/
def scaleBiasRelu (A : (⟨2, ![100000, 128]⟩ : Shape).Idx → EReal) (v : (⟨2, ![100000, 1]⟩ : Shape).Idx → EReal)
    (b : (⟨2, ![1, 128]⟩ : Shape).Idx → EReal) : (⟨2, ![100000, 128]⟩ : Shape).Idx → EReal :=
  fun i => max (A i * v (ix2 (i 0) (0 : Fin 1)) + b (ix2 (0 : Fin 1) (i 1))) 0

/-- Rows of `X` times `W`, the column's bias added. -/
def rowsBias {D : Nat} (X : (⟨2, ![100000, 128]⟩ : Shape).Idx → EReal) (W : (⟨2, ![128, D]⟩ : Shape).Idx → EReal)
    (b : (⟨2, ![1, D]⟩ : Shape).Idx → EReal) : (⟨2, ![100000, D]⟩ : Shape).Idx → EReal :=
  fun i => (0 + ∑ k : Fin 128, X (ix2 (i 0) k) * W (ix2 k (i 1))) + b (ix2 (0 : Fin 1) (i 1))

end Cert.Spec

end
-- ==== Proof.PayloadAt.lean ====
/-
  The five kernel bodies' stored values read at one entry `(p, q)` of the block, over arbitrary input blocks:
  a matrix product into a zero accumulator is zero plus the sum over the contraction coordinate; a column
  broadcast along the rows' entries reads the row's one entry; a row broadcast down the rows reads the column's
  entry; the narrowing to bf16 is the identity on extended reals; the zero word is zero.
-/
import proofs.«169896_j60378650247170_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-- The zero offsets of a whole-block access, however spelt. -/
theorem zero_offsets : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate at output `i` is `i`'s row. -/
theorem matmul128_lhs0 (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's column coordinate at output `i` is `i`'s column. -/
theorem matmul128_rhs1 (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product added into the zero accumulator, read at `(p, q)`: zero plus the sum over the
    contraction coordinate of row `p` of the left operand times column `q` of the right. -/
theorem matmul128_at {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = 0 + ∑ k : Fin 128, x (ix2 p k) * w (ix2 k q) := by
  show FloatOps.matmul _ none x w (constant _ .f32 0x00000000#32) (ix2 p q) = _
  rw [Ideal.matmul_constant_zero_apply, ← Equiv.sum_comp (contrEquiv1 dot_S5000x128_S128x128_S5000x128_1_0_0_1_n_n 128 rfl rfl).symm, zero_add]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact matmul128_lhs0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact matmul128_rhs1 _ _)
  rw [el, er]

/-- The left operand's row coordinate at output `i` is `i`'s row. -/
theorem matmul64_lhs0 (i : S5000x64.Idx) (r : dot_S5000x128_S128x64_S5000x64_1_0_0_1_n_n.contr.Idx) : (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The right operand's column coordinate at output `i` is `i`'s column. -/
theorem matmul64_rhs1 (i : S5000x64.Idx) (r : dot_S5000x128_S128x64_S5000x64_1_0_0_1_n_n.contr.Idx) : (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product added into the zero accumulator, read at `(p, q)`: zero plus the sum over the
    contraction coordinate of row `p` of the left operand times column `q` of the right. -/
theorem matmul64_at {φ₁ φ₂ : FTy} (x : FVec Ideal S5000x128 φ₁) (w : FVec Ideal S128x64 φ₂) (p : Fin 5000) (q : Fin 64) :
    matmul dot_S5000x128_S128x64_S5000x64_1_0_0_1_n_n none x w (constant S5000x64 .f32 0x00000000#32) (ix2 p q)
      = 0 + ∑ k : Fin 128, x (ix2 p k) * w (ix2 k q) := by
  show FloatOps.matmul _ none x w (constant _ .f32 0x00000000#32) (ix2 p q) = _
  rw [Ideal.matmul_constant_zero_apply, ← Equiv.sum_comp (contrEquiv1 dot_S5000x128_S128x64_S5000x64_1_0_0_1_n_n 128 rfl rfl).symm, zero_add]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact matmul64_lhs0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact matmul64_rhs1 _ _)
  rw [el, er]

/-- Regions 1 and 3 at an entry: the entry scaled by its row's factor, plus the column's bias, cut off below at zero. -/
theorem k1_pay1_at (x0 : Vec Ideal S5000x128 .f32) (x1 : Vec Ideal S5000x1 .f32) (x2 : Vec Ideal S1x128 .f32)
    (p : Fin 5000) (q : Fin 128) :
    k1_pay1 x0 x1 x2 (ix2 p q) = max (x0 (ix2 p q) * x1 (ix2 p (0 : Fin 1)) + x2 (ix2 (0 : Fin 1) q)) 0 := by
  unfold k1_pay1
  simp only [shapeCast_self]
  rw [maximumf_apply, addf_apply, mulf_apply, broadcast_apply, broadcastTo_a1_ab_apply, broadcastTo_1b_ab_apply]
  show max _ (Ideal.ofBits .f32 0x00000000#32) = _
  rw [Ideal.ofBits_zero_f32]

theorem k3_pay1_at (x0 : Vec Ideal S5000x128 .f32) (x1 : Vec Ideal S5000x1 .f32) (x2 : Vec Ideal S1x128 .f32)
    (p : Fin 5000) (q : Fin 128) :
    k3_pay1 x0 x1 x2 (ix2 p q) = max (x0 (ix2 p q) * x1 (ix2 p (0 : Fin 1)) + x2 (ix2 (0 : Fin 1) q)) 0 := by
  unfold k3_pay1
  simp only [shapeCast_self]
  rw [maximumf_apply, addf_apply, mulf_apply, broadcast_apply, broadcastTo_a1_ab_apply, broadcastTo_1b_ab_apply]
  show max _ (Ideal.ofBits .f32 0x00000000#32) = _
  rw [Ideal.ofBits_zero_f32]

/-- Regions 0 and 2 at an entry: row `p` of the block times the weight matrix, scaled by the row's factor. -/
theorem k0_pay1_at (x0 : Vec Ideal S5000x128 .f32) (x1 : Vec Ideal S128x128 .f32) (x2 : Vec Ideal S5000x1 .f32)
    (p : Fin 5000) (q : Fin 128) :
    k0_pay1 x0 x1 x2 (ix2 p q) = (0 + ∑ k : Fin 128, x0 (ix2 p k) * x1 (ix2 k q)) * x2 (ix2 p (0 : Fin 1)) := by
  unfold k0_pay1
  simp only [shapeCast_self]
  rw [mulf_apply, broadcastTo_a1_ab_apply, matmul128_at]
  rfl

theorem k2_pay1_at (x0 : Vec Ideal S5000x128 .f32) (x1 : Vec Ideal S128x128 .f32) (x2 : Vec Ideal S5000x1 .f32)
    (p : Fin 5000) (q : Fin 128) :
    k2_pay1 x0 x1 x2 (ix2 p q) = (0 + ∑ k : Fin 128, x0 (ix2 p k) * x1 (ix2 k q)) * x2 (ix2 p (0 : Fin 1)) := by
  unfold k2_pay1
  simp only [shapeCast_self]
  rw [mulf_apply, broadcastTo_a1_ab_apply, matmul128_at]
  rfl

/-- Region 4 at an entry: row `p` of the block times the weight matrix, plus the column's bias. -/
theorem k4_pay1_at (x0 : Vec Ideal S5000x128 .f32) (x1 : Vec Ideal S128x64 .f32) (x2 : Vec Ideal S1x64 .f32)
    (p : Fin 5000) (q : Fin 64) :
    k4_pay1 x0 x1 x2 (ix2 p q) = (0 + ∑ k : Fin 128, x0 (ix2 p k) * x1 (ix2 k q)) + x2 (ix2 (0 : Fin 1) q) := by
  unfold k4_pay1
  simp only [shapeCast_self]
  rw [addf_apply, broadcastTo_1b_ab_apply, matmul64_at]
  rfl

end Cert.KernelIdeal.RegionValue

end
-- ==== Proof.RegionMatScale0.lean ====
/-
  Region 0 (rows times the weight matrix, scaled by the rows' factors): what it leaves in its output array. Grid point `t` handles rows
  `5000·t … 5000·t + 4999`: the rows and their factors move with the output block, the weight matrix is one block read
  at every point. Each point writes back the block of one whole-array function; the twenty blocks cover the
  array (row `r` is in block `r / 5000`), so the array ends holding that function.
-/
import proofs.«169896_j60378650247170_2_alg».proof.Proof.Gen.KernelIdeal.Frame
import proofs.«169896_j60378650247170_2_alg».proof.Proof.Spec
import proofs.«169896_j60378650247170_2_alg».proof.Proof.PayloadAt
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the twenty points: the row-blocked windows are at block row
    `t`, the one-block windows at their one block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000·t + p` of the array. -/
theorem rowOf0 (t : Fin cfg0.N) (p : Fin 5000) : t.val * 5000 + p.val < 100000 := by
  have hN : cfg0.N = 20 := N_0
  have ht : t.val < 20 := hN ▸ t.isLt
  have hp := p.isLt
  omega

/-- The rows' block at point `t`, entry `(p, k)`: the array's entry `(5000·t + p, k)`. -/
theorem iblk0_0_apply (c : Dev nD) (t : Fin cfg0.N) (p : Fin 5000) (k : Fin 128) :
    (iblk0 V c 0 t : Vec Ideal S5000x128 .f32) (ix2 p k)
      = (V c main_arg0 : S100000x128.Idx → EReal) (ix2 ⟨t.val * 5000 + p.val, rowOf0 t p⟩ k) := by
  obtain ⟨e00, e01, -⟩ := blockIndex0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = t.val * 5000 + p.val; rw [e00]; omega
  | ⟨1, _⟩ => show win0_0.index t (1 : Fin 2) * 128 + 1 * k.val = k.val; rw [e01]; omega

/-- The weight matrix's block at every point is the weight matrix. -/
theorem iblk0_1_apply (c : Dev nD) (t : Fin cfg0.N) (k : Fin 128) (q : Fin 128) :
    (iblk0 V c 1 t : Vec Ideal S128x128 .f32) (ix2 k q) = (V c main_arg1 : S128x128.Idx → EReal) (ix2 k q) := by
  obtain ⟨-, -, e10, e11, -⟩ := blockIndex0 t
  unfold iblk0
  rw [View.read_apply]
  show V c main_arg1 _ = V c main_arg1 _
  refine congrArg _ (funext fun a => Fin.ext ?_)
  match a with
  | ⟨0, _⟩ => show win0_1.index t (0 : Fin 2) * 128 + 1 * k.val = k.val; rw [e10]; omega
  | ⟨1, _⟩ => show win0_1.index t (1 : Fin 2) * 128 + 1 * q.val = q.val; rw [e11]; omega

/-- The row factors' block at point `t`, entry `(p, 0)`: the array's entry `(5000·t + p, 0)`. -/
theorem iblk0_2_apply (c : Dev nD) (t : Fin cfg0.N) (p : Fin 5000) :
    (iblk0 V c 2 t : Vec Ideal S5000x1 .f32) (ix2 p (0 : Fin 1))
      = (V c main_v15 : S100000x1.Idx → EReal) (ix2 ⟨t.val * 5000 + p.val, rowOf0 t p⟩ (0 : Fin 1)) := by
  obtain ⟨-, -, -, -, e20, e21, -⟩ := blockIndex0 t
  unfold iblk0
  rw [View.read_apply]
  show V c main_v15 _ = V c main_v15 _
  refine congrArg _ (funext fun a => Fin.ext ?_)
  match a with
  | ⟨0, _⟩ => show win0_2.index t (0 : Fin 2) * 5000 + 1 * p.val = t.val * 5000 + p.val; rw [e20]; omega
  | ⟨1, _⟩ => show win0_2.index t (1 : Fin 2) * 1 + 1 * 0 = 0; rw [e21]

/-- Entry `(p, q)` of the output's block at point `t` sits at `(5000·t + p, q)` in the output array. -/
theorem oblk0_emb (t : Fin cfg0.N) (p : Fin 5000) (q : Fin 128) :
    ((cfg0.win 3).blk t).view.emb (ix2 p q) = (ix2 ⟨t.val * 5000 + p.val, rowOf0 t p⟩ q : S100000x128.Idx) := by
  obtain ⟨-, -, -, -, -, -, e30, e31⟩ := blockIndex0 t
  refine funext fun a => Fin.ext ?_
  match a with
  | ⟨0, _⟩ => show win0_3.index t (0 : Fin 2) * 5000 + 1 * p.val = t.val * 5000 + p.val; rw [e30]; omega
  | ⟨1, _⟩ => show win0_3.index t (1 : Fin 2) * 128 + 1 * q.val = q.val; rw [e31]; omega

/-- What point `t` writes back is block `t` of the rows times the weight matrix, scaled by the rows' factors. -/
theorem flushed0_eq (c : Dev nD) (t : Fin cfg0.N) :
    (dat0 (F := Ideal) V c).flushed 3 t = ((cfg0.win 3).blk t).view.read (Elt Ideal)
      (Cert.Spec.scaledRows (V c main_arg0) (V c main_arg1) (V c main_v15)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  funext j
  obtain ⟨p, q, rfl⟩ : ∃ (p : Fin 5000) (q : Fin 128), j = ix2 p q := ⟨j 0, j 1, eq_ix2 j⟩
  refine (k0_pay1_at _ _ _ p q).trans ?_
  rw [View.read_apply, oblk0_emb t p q]
  simp only [iblk0_0_apply V c t p, iblk0_1_apply V c t, iblk0_2_apply V c t p]
  rfl

/-- An index of the output array is in point `t`'s block iff each coordinate is in the block's range on its axis. -/
theorem mem_oblk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in some point's block: row `r` is in block `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e30, e31⟩ := blockIndex0 ⟨(i 0).val / 5000, ht⟩
  refine ⟨⟨(i 0).val / 5000, ht⟩, flush0_3 _, ?_⟩
  rw [mem_oblk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- Region 0's output array after the region: rows times the weight matrix, scaled by the rows' factors. -/
theorem final0 (c : Dev nD) : (dat0 (F := Ideal) V c).arrAt 3 cfg0.N
    = Cert.Spec.scaledRows (V c main_arg0) (V c main_arg1) (V c main_v15) :=
  (dat0 V c).arrAt_eq_of_cover 3 _ (fun t _ => flushed0_eq V c t) cover0

end Cert.KernelIdeal.RegionValue

end
-- ==== Proof.RegionScaleRelu1.lean ====
/-
  Region 1 (scale, bias, cut off at zero): what it leaves in its output array. Grid point `t` handles rows
  `5000·t … 5000·t + 4999`: the aggregated rows and their row factors move with the output block, the bias row is
  one block read at every point. Each point writes back the block of one whole-array function; the twenty
  blocks cover the array (row `r` is in block `r / 5000`), so the array ends holding that function.
-/
import proofs.«169896_j60378650247170_2_alg».proof.Proof.Gen.KernelIdeal.Frame
import proofs.«169896_j60378650247170_2_alg».proof.Proof.Spec
import proofs.«169896_j60378650247170_2_alg».proof.Proof.PayloadAt
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the twenty points: the row-blocked windows (aggregated rows,
    row factors, output) are at block row `t`, the bias window at its one block. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `5000·t + p` of the array. -/
theorem rowOf1 (t : Fin cfg1.N) (p : Fin 5000) : t.val * 5000 + p.val < 100000 := by
  have hN : cfg1.N = 20 := N_1
  have ht : t.val < 20 := hN ▸ t.isLt
  have hp := p.isLt
  omega

/-- The aggregated rows' block at point `t`, entry `(p, q)`: the array's entry `(5000·t + p, q)`. -/
theorem iblk1_0_apply (c : Dev nD) (t : Fin cfg1.N) (p : Fin 5000) (q : Fin 128) :
    (iblk1 V c 0 t : Vec Ideal S5000x128 .f32) (ix2 p q)
      = (V c main_v26 : S100000x128.Idx → EReal) (ix2 ⟨t.val * 5000 + p.val, rowOf1 t p⟩ q) := by
  obtain ⟨e00, e01, -⟩ := blockIndex1 t
  unfold iblk1
  rw [View.read_apply]
  show V c main_v26 _ = V c main_v26 _
  refine congrArg _ (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 128 + 1 * q.val = q.val; rw [e01]; omega

/-- The row factors' block at point `t`, entry `(p, 0)`: the array's entry `(5000·t + p, 0)`. -/
theorem iblk1_1_apply (c : Dev nD) (t : Fin cfg1.N) (p : Fin 5000) :
    (iblk1 V c 1 t : Vec Ideal S5000x1 .f32) (ix2 p (0 : Fin 1))
      = (V c main_v15 : S100000x1.Idx → EReal) (ix2 ⟨t.val * 5000 + p.val, rowOf1 t p⟩ (0 : Fin 1)) := by
  obtain ⟨-, -, e10, e11, -⟩ := blockIndex1 t
  unfold iblk1
  rw [View.read_apply]
  show V c main_v15 _ = V c main_v15 _
  refine congrArg _ (funext fun a => Fin.ext ?_)
  match a with
  | ⟨0, _⟩ => show win1_1.index t (0 : Fin 2) * 5000 + 1 * p.val = t.val * 5000 + p.val; rw [e10]; omega
  | ⟨1, _⟩ => show win1_1.index t (1 : Fin 2) * 1 + 1 * 0 = 0; rw [e11]

/-- The bias row's block at every point is the bias row. -/
theorem iblk1_2_apply (c : Dev nD) (t : Fin cfg1.N) (q : Fin 128) :
    (iblk1 V c 2 t : Vec Ideal S1x128 .f32) (ix2 (0 : Fin 1) q)
      = (V c main_v27 : S1x128.Idx → EReal) (ix2 (0 : Fin 1) q) := by
  obtain ⟨-, -, -, -, e20, e21, -⟩ := blockIndex1 t
  unfold iblk1
  rw [View.read_apply]
  show V c main_v27 _ = V c main_v27 _
  refine congrArg _ (funext fun a => Fin.ext ?_)
  match a with
  | ⟨0, _⟩ => show win1_2.index t (0 : Fin 2) * 1 + 1 * 0 = 0; rw [e20]
  | ⟨1, _⟩ => show win1_2.index t (1 : Fin 2) * 128 + 1 * q.val = q.val; rw [e21]; omega

/-- Entry `(p, q)` of the output's block at point `t` sits at `(5000·t + p, q)` in the output array. -/
theorem oblk1_emb (t : Fin cfg1.N) (p : Fin 5000) (q : Fin 128) :
    ((cfg1.win 3).blk t).view.emb (ix2 p q) = (ix2 ⟨t.val * 5000 + p.val, rowOf1 t p⟩ q : S100000x128.Idx) := by
  obtain ⟨-, -, -, -, -, -, e30, e31⟩ := blockIndex1 t
  refine funext fun a => Fin.ext ?_
  match a with
  | ⟨0, _⟩ => show win1_3.index t (0 : Fin 2) * 5000 + 1 * p.val = t.val * 5000 + p.val; rw [e30]; omega
  | ⟨1, _⟩ => show win1_3.index t (1 : Fin 2) * 128 + 1 * q.val = q.val; rw [e31]; omega

/-- What point `t` writes back is block `t` of the rows scaled, biased and cut off at zero. -/
theorem flushed1_eq (c : Dev nD) (t : Fin cfg1.N) :
    (dat1 (F := Ideal) V c).flushed 3 t = ((cfg1.win 3).blk t).view.read (Elt Ideal)
      (Cert.Spec.scaleBiasRelu (V c main_v26) (V c main_v15) (V c main_v27)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  refine (k1_pay1_at _ _ _ p q).trans ?_
  rw [iblk1_0_apply V c t p q, iblk1_1_apply V c t p, iblk1_2_apply V c t q, View.read_apply, oblk1_emb t p q]
  rfl

/-- An index of the output array is in point `t`'s block iff each coordinate is in the block's range on its axis. -/
theorem mem_oblk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- Every index of the output array is in some point's block: row `r` is in block `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, e30, e31⟩ := blockIndex1 ⟨(i 0).val / 5000, ht⟩
  refine ⟨⟨(i 0).val / 5000, ht⟩, flush1_3 _, ?_⟩
  rw [mem_oblk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e31]; omega

/-- Region 1's output array after the region: every entry scaled by its row's factor, the column's bias added,
    cut off below at zero. -/
theorem final1 (c : Dev nD) : (dat1 (F := Ideal) V c).arrAt 3 cfg1.N
    = Cert.Spec.scaleBiasRelu (V c main_v26) (V c main_v15) (V c main_v27) :=
  (dat1 V c).arrAt_eq_of_cover 3 _ (fun t _ => flushed1_eq V c t) cover1

end Cert.KernelIdeal.RegionValue

end
-- ==== Proof.RegionMatScale2.lean ====
/-
  Region 2 (rows times the weight matrix, scaled by the rows' factors): what it leaves in its output array. Grid point `t` handles rows
  `5000·t … 5000·t + 4999`: the rows and their factors move with the output block, the weight matrix is one block read
  at every point. Each point writes back the block of one whole-array function; the twenty blocks cover the
  array (row `r` is in block `r / 5000`), so the array ends holding that function.
-/
import proofs.«169896_j60378650247170_2_alg».proof.Proof.Gen.KernelIdeal.Frame
import proofs.«169896_j60378650247170_2_alg».proof.Proof.Spec
import proofs.«169896_j60378650247170_2_alg».proof.Proof.PayloadAt
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the twenty points: the row-blocked windows are at block row
    `t`, the one-block windows at their one block. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of point `t`'s block is row `5000·t + p` of the array. -/
theorem rowOf2 (t : Fin cfg2.N) (p : Fin 5000) : t.val * 5000 + p.val < 100000 := by
  have hN : cfg2.N = 20 := N_2
  have ht : t.val < 20 := hN ▸ t.isLt
  have hp := p.isLt
  omega

/-- The rows' block at point `t`, entry `(p, k)`: the array's entry `(5000·t + p, k)`. -/
theorem iblk2_0_apply (c : Dev nD) (t : Fin cfg2.N) (p : Fin 5000) (k : Fin 128) :
    (iblk2 V c 0 t : Vec Ideal S5000x128 .f32) (ix2 p k)
      = (V c main_v28 : S100000x128.Idx → EReal) (ix2 ⟨t.val * 5000 + p.val, rowOf2 t p⟩ k) := by
  obtain ⟨e00, e01, -⟩ := blockIndex2 t
  unfold iblk2
  rw [View.read_apply]
  show V c main_v28 _ = V c main_v28 _
  refine congrArg _ (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 128 + 1 * k.val = k.val; rw [e01]; omega

/-- The weight matrix's block at every point is the weight matrix. -/
theorem iblk2_1_apply (c : Dev nD) (t : Fin cfg2.N) (k : Fin 128) (q : Fin 128) :
    (iblk2 V c 1 t : Vec Ideal S128x128 .f32) (ix2 k q) = (V c main_arg3 : S128x128.Idx → EReal) (ix2 k q) := by
  obtain ⟨-, -, e10, e11, -⟩ := blockIndex2 t
  unfold iblk2
  rw [View.read_apply]
  show V c main_arg3 _ = V c main_arg3 _
  refine congrArg _ (funext fun a => Fin.ext ?_)
  match a with
  | ⟨0, _⟩ => show win2_1.index t (0 : Fin 2) * 128 + 1 * k.val = k.val; rw [e10]; omega
  | ⟨1, _⟩ => show win2_1.index t (1 : Fin 2) * 128 + 1 * q.val = q.val; rw [e11]; omega

/-- The row factors' block at point `t`, entry `(p, 0)`: the array's entry `(5000·t + p, 0)`. -/
theorem iblk2_2_apply (c : Dev nD) (t : Fin cfg2.N) (p : Fin 5000) :
    (iblk2 V c 2 t : Vec Ideal S5000x1 .f32) (ix2 p (0 : Fin 1))
      = (V c main_v15 : S100000x1.Idx → EReal) (ix2 ⟨t.val * 5000 + p.val, rowOf2 t p⟩ (0 : Fin 1)) := by
  obtain ⟨-, -, -, -, e20, e21, -⟩ := blockIndex2 t
  unfold iblk2
  rw [View.read_apply]
  show V c main_v15 _ = V c main_v15 _
  refine congrArg _ (funext fun a => Fin.ext ?_)
  match a with
  | ⟨0, _⟩ => show win2_2.index t (0 : Fin 2) * 5000 + 1 * p.val = t.val * 5000 + p.val; rw [e20]; omega
  | ⟨1, _⟩ => show win2_2.index t (1 : Fin 2) * 1 + 1 * 0 = 0; rw [e21]

/-- Entry `(p, q)` of the output's block at point `t` sits at `(5000·t + p, q)` in the output array. -/
theorem oblk2_emb (t : Fin cfg2.N) (p : Fin 5000) (q : Fin 128) :
    ((cfg2.win 3).blk t).view.emb (ix2 p q) = (ix2 ⟨t.val * 5000 + p.val, rowOf2 t p⟩ q : S100000x128.Idx) := by
  obtain ⟨-, -, -, -, -, -, e30, e31⟩ := blockIndex2 t
  refine funext fun a => Fin.ext ?_
  match a with
  | ⟨0, _⟩ => show win2_3.index t (0 : Fin 2) * 5000 + 1 * p.val = t.val * 5000 + p.val; rw [e30]; omega
  | ⟨1, _⟩ => show win2_3.index t (1 : Fin 2) * 128 + 1 * q.val = q.val; rw [e31]; omega

/-- What point `t` writes back is block `t` of the rows times the weight matrix, scaled by the rows' factors. -/
theorem flushed2_eq (c : Dev nD) (t : Fin cfg2.N) :
    (dat2 (F := Ideal) V c).flushed 3 t = ((cfg2.win 3).blk t).view.read (Elt Ideal)
      (Cert.Spec.scaledRows (V c main_v28) (V c main_arg3) (V c main_v15)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets,
    View.ld_unit_zero (S := S5000x1) zero_offsets]
  funext j
  obtain ⟨p, q, rfl⟩ : ∃ (p : Fin 5000) (q : Fin 128), j = ix2 p q := ⟨j 0, j 1, eq_ix2 j⟩
  refine (k2_pay1_at _ _ _ p q).trans ?_
  rw [View.read_apply, oblk2_emb t p q]
  simp only [iblk2_0_apply V c t p, iblk2_1_apply V c t, iblk2_2_apply V c t p]
  rfl

/-- An index of the output array is in point `t`'s block iff each coordinate is in the block's range on its axis. -/
theorem mem_oblk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v29).slice (win2_3.rect t)).set ↔ _
  rw [View.set_slice_whole, Rect.mem_set_unit]
  exact Iff.rfl

/-- Every index of the output array is in some point's block: row `r` is in block `r / 5000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, e30, e31⟩ := blockIndex2 ⟨(i 0).val / 5000, ht⟩
  refine ⟨⟨(i 0).val / 5000, ht⟩, flush2_3 _, ?_⟩
  rw [mem_oblk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e31]; omega

/-- Region 2's output array after the region: rows times the weight matrix, scaled by the rows' factors. -/
theorem final2 (c : Dev nD) : (dat2 (F := Ideal) V c).arrAt 3 cfg2.N
    = Cert.Spec.scaledRows (V c main_v28) (V c main_arg3) (V c main_v15) :=
  (dat2 V c).arrAt_eq_of_cover 3 _ (fun t _ => flushed2_eq V c t) cover2

end Cert.KernelIdeal.RegionValue

end
-- ==== Proof.RegionScaleRelu3.lean ====
/-
  Region 3 (scale, bias, cut off at zero): what it leaves in its output array. Grid point `t` handles rows
  `5000·t … 5000·t + 4999`: the aggregated rows and their row factors move with the output block, the bias row is
  one block read at every point. Each point writes back the block of one whole-array function; the twenty
  blocks cover the array (row `r` is in block `r / 5000`), so the array ends holding that function.
-/
import proofs.«169896_j60378650247170_2_alg».proof.Proof.Gen.KernelIdeal.Frame
import proofs.«169896_j60378650247170_2_alg».proof.Proof.Spec
import proofs.«169896_j60378650247170_2_alg».proof.Proof.PayloadAt
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the twenty points: the row-blocked windows (aggregated rows,
    row factors, output) are at block row `t`, the bias window at its one block. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of point `t`'s block is row `5000·t + p` of the array. -/
theorem rowOf3 (t : Fin cfg3.N) (p : Fin 5000) : t.val * 5000 + p.val < 100000 := by
  have hN : cfg3.N = 20 := N_3
  have ht : t.val < 20 := hN ▸ t.isLt
  have hp := p.isLt
  omega

/-- The aggregated rows' block at point `t`, entry `(p, q)`: the array's entry `(5000·t + p, q)`. -/
theorem iblk3_0_apply (c : Dev nD) (t : Fin cfg3.N) (p : Fin 5000) (q : Fin 128) :
    (iblk3 V c 0 t : Vec Ideal S5000x128 .f32) (ix2 p q)
      = (V c main_v39 : S100000x128.Idx → EReal) (ix2 ⟨t.val * 5000 + p.val, rowOf3 t p⟩ q) := by
  obtain ⟨e00, e01, -⟩ := blockIndex3 t
  unfold iblk3
  rw [View.read_apply]
  show V c main_v39 _ = V c main_v39 _
  refine congrArg _ (funext fun a => Fin.ext ?_)
  match a with
  | ⟨0, _⟩ => show win3_0.index t (0 : Fin 2) * 5000 + 1 * p.val = t.val * 5000 + p.val; rw [e00]; omega
  | ⟨1, _⟩ => show win3_0.index t (1 : Fin 2) * 128 + 1 * q.val = q.val; rw [e01]; omega

/-- The row factors' block at point `t`, entry `(p, 0)`: the array's entry `(5000·t + p, 0)`. -/
theorem iblk3_1_apply (c : Dev nD) (t : Fin cfg3.N) (p : Fin 5000) :
    (iblk3 V c 1 t : Vec Ideal S5000x1 .f32) (ix2 p (0 : Fin 1))
      = (V c main_v15 : S100000x1.Idx → EReal) (ix2 ⟨t.val * 5000 + p.val, rowOf3 t p⟩ (0 : Fin 1)) := by
  obtain ⟨-, -, e10, e11, -⟩ := blockIndex3 t
  unfold iblk3
  rw [View.read_apply]
  show V c main_v15 _ = V c main_v15 _
  refine congrArg _ (funext fun a => Fin.ext ?_)
  match a with
  | ⟨0, _⟩ => show win3_1.index t (0 : Fin 2) * 5000 + 1 * p.val = t.val * 5000 + p.val; rw [e10]; omega
  | ⟨1, _⟩ => show win3_1.index t (1 : Fin 2) * 1 + 1 * 0 = 0; rw [e11]

/-- The bias row's block at every point is the bias row. -/
theorem iblk3_2_apply (c : Dev nD) (t : Fin cfg3.N) (q : Fin 128) :
    (iblk3 V c 2 t : Vec Ideal S1x128 .f32) (ix2 (0 : Fin 1) q)
      = (V c main_v40 : S1x128.Idx → EReal) (ix2 (0 : Fin 1) q) := by
  obtain ⟨-, -, -, -, e20, e21, -⟩ := blockIndex3 t
  unfold iblk3
  rw [View.read_apply]
  show V c main_v40 _ = V c main_v40 _
  refine congrArg _ (funext fun a => Fin.ext ?_)
  match a with
  | ⟨0, _⟩ => show win3_2.index t (0 : Fin 2) * 1 + 1 * 0 = 0; rw [e20]
  | ⟨1, _⟩ => show win3_2.index t (1 : Fin 2) * 128 + 1 * q.val = q.val; rw [e21]; omega

/-- Entry `(p, q)` of the output's block at point `t` sits at `(5000·t + p, q)` in the output array. -/
theorem oblk3_emb (t : Fin cfg3.N) (p : Fin 5000) (q : Fin 128) :
    ((cfg3.win 3).blk t).view.emb (ix2 p q) = (ix2 ⟨t.val * 5000 + p.val, rowOf3 t p⟩ q : S100000x128.Idx) := by
  obtain ⟨-, -, -, -, -, -, e30, e31⟩ := blockIndex3 t
  refine funext fun a => Fin.ext ?_
  match a with
  | ⟨0, _⟩ => show win3_3.index t (0 : Fin 2) * 5000 + 1 * p.val = t.val * 5000 + p.val; rw [e30]; omega
  | ⟨1, _⟩ => show win3_3.index t (1 : Fin 2) * 128 + 1 * q.val = q.val; rw [e31]; omega

/-- What point `t` writes back is block `t` of the rows scaled, biased and cut off at zero. -/
theorem flushed3_eq (c : Dev nD) (t : Fin cfg3.N) :
    (dat3 (F := Ideal) V c).flushed 3 t = ((cfg3.win 3).blk t).view.read (Elt Ideal)
      (Cert.Spec.scaleBiasRelu (V c main_v39) (V c main_v15) (V c main_v40)) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S5000x1) zero_offsets,
    View.ld_unit_zero (S := S1x128) zero_offsets]
  funext j
  obtain ⟨p, q, rfl⟩ : ∃ (p : Fin 5000) (q : Fin 128), j = ix2 p q := ⟨j 0, j 1, eq_ix2 j⟩
  refine (k3_pay1_at _ _ _ p q).trans ?_
  rw [iblk3_0_apply V c t p q, iblk3_1_apply V c t p, iblk3_2_apply V c t q, View.read_apply, oblk3_emb t p q]
  rfl

/-- An index of the output array is in point `t`'s block iff each coordinate is in the block's range on its axis. -/
theorem mem_oblk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v41).slice (win3_3.rect t)).set ↔ _
  rw [View.set_slice_whole, Rect.mem_set_unit]
  exact Iff.rfl

/-- Every index of the output array is in some point's block: row `r` is in block `r / 5000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, e30, e31⟩ := blockIndex3 ⟨(i 0).val / 5000, ht⟩
  refine ⟨⟨(i 0).val / 5000, ht⟩, flush3_3 _, ?_⟩
  rw [mem_oblk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e31]; omega

/-- Region 3's output array after the region: every entry scaled by its row's factor, the column's bias added,
    cut off below at zero. -/
theorem final3 (c : Dev nD) : (dat3 (F := Ideal) V c).arrAt 3 cfg3.N
    = Cert.Spec.scaleBiasRelu (V c main_v39) (V c main_v15) (V c main_v40) :=
  (dat3 V c).arrAt_eq_of_cover 3 _ (fun t _ => flushed3_eq V c t) cover3

end Cert.KernelIdeal.RegionValue

end
-- ==== Proof.RegionMatBias4.lean ====
/-
  Region 4 (rows times the weight matrix, plus the bias row): what it leaves in its output array. Grid point `t` handles rows
  `5000·t … 5000·t + 4999`: the rows move with the output block, the weight matrix and the bias row are one block read
  at every point. Each point writes back the block of one whole-array function; the twenty blocks cover the
  array (row `r` is in block `r / 5000`), so the array ends holding that function.
-/
import proofs.«169896_j60378650247170_2_alg».proof.Proof.Gen.KernelIdeal.Frame
import proofs.«169896_j60378650247170_2_alg».proof.Proof.Spec
import proofs.«169896_j60378650247170_2_alg».proof.Proof.PayloadAt
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at grid point `t`, decided over the twenty points: the row-blocked windows are at block row
    `t`, the one-block windows at their one block. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of point `t`'s block is row `5000·t + p` of the array. -/
theorem rowOf4 (t : Fin cfg4.N) (p : Fin 5000) : t.val * 5000 + p.val < 100000 := by
  have hN : cfg4.N = 20 := N_4
  have ht : t.val < 20 := hN ▸ t.isLt
  have hp := p.isLt
  omega

/-- The rows' block at point `t`, entry `(p, k)`: the array's entry `(5000·t + p, k)`. -/
theorem iblk4_0_apply (c : Dev nD) (t : Fin cfg4.N) (p : Fin 5000) (k : Fin 128) :
    (iblk4 V c 0 t : Vec Ideal S5000x128 .f32) (ix2 p k)
      = (V c main_v41 : S100000x128.Idx → EReal) (ix2 ⟨t.val * 5000 + p.val, rowOf4 t p⟩ k) := by
  obtain ⟨e00, e01, -⟩ := blockIndex4 t
  unfold iblk4
  rw [View.read_apply]
  show V c main_v41 _ = V c main_v41 _
  refine congrArg _ (funext fun a => Fin.ext ?_)
  match a with
  | ⟨0, _⟩ => show win4_0.index t (0 : Fin 2) * 5000 + 1 * p.val = t.val * 5000 + p.val; rw [e00]; omega
  | ⟨1, _⟩ => show win4_0.index t (1 : Fin 2) * 128 + 1 * k.val = k.val; rw [e01]; omega

/-- The weight matrix's block at every point is the weight matrix. -/
theorem iblk4_1_apply (c : Dev nD) (t : Fin cfg4.N) (k : Fin 128) (q : Fin 64) :
    (iblk4 V c 1 t : Vec Ideal S128x64 .f32) (ix2 k q) = (V c main_arg5 : S128x64.Idx → EReal) (ix2 k q) := by
  obtain ⟨-, -, e10, e11, -⟩ := blockIndex4 t
  unfold iblk4
  rw [View.read_apply]
  show V c main_arg5 _ = V c main_arg5 _
  refine congrArg _ (funext fun a => Fin.ext ?_)
  match a with
  | ⟨0, _⟩ => show win4_1.index t (0 : Fin 2) * 128 + 1 * k.val = k.val; rw [e10]; omega
  | ⟨1, _⟩ => show win4_1.index t (1 : Fin 2) * 64 + 1 * q.val = q.val; rw [e11]; omega

/-- The bias row's block at every point is the bias row. -/
theorem iblk4_2_apply (c : Dev nD) (t : Fin cfg4.N) (q : Fin 64) :
    (iblk4 V c 2 t : Vec Ideal S1x64 .f32) (ix2 (0 : Fin 1) q)
      = (V c main_v42 : S1x64.Idx → EReal) (ix2 (0 : Fin 1) q) := by
  obtain ⟨-, -, -, -, e20, e21, -⟩ := blockIndex4 t
  unfold iblk4
  rw [View.read_apply]
  show V c main_v42 _ = V c main_v42 _
  refine congrArg _ (funext fun a => Fin.ext ?_)
  match a with
  | ⟨0, _⟩ => show win4_2.index t (0 : Fin 2) * 1 + 1 * 0 = 0; rw [e20]
  | ⟨1, _⟩ => show win4_2.index t (1 : Fin 2) * 64 + 1 * q.val = q.val; rw [e21]; omega

/-- Entry `(p, q)` of the output's block at point `t` sits at `(5000·t + p, q)` in the output array. -/
theorem oblk4_emb (t : Fin cfg4.N) (p : Fin 5000) (q : Fin 64) :
    ((cfg4.win 3).blk t).view.emb (ix2 p q) = (ix2 ⟨t.val * 5000 + p.val, rowOf4 t p⟩ q : S100000x64.Idx) := by
  obtain ⟨-, -, -, -, -, -, e30, e31⟩ := blockIndex4 t
  refine funext fun a => Fin.ext ?_
  match a with
  | ⟨0, _⟩ => show win4_3.index t (0 : Fin 2) * 5000 + 1 * p.val = t.val * 5000 + p.val; rw [e30]; omega
  | ⟨1, _⟩ => show win4_3.index t (1 : Fin 2) * 64 + 1 * q.val = q.val; rw [e31]; omega

/-- What point `t` writes back is block `t` of the rows times the weight matrix, plus the bias row. -/
theorem flushed4_eq (c : Dev nD) (t : Fin cfg4.N) :
    (dat4 (F := Ideal) V c).flushed 3 t = ((cfg4.win 3).blk t).view.read (Elt Ideal)
      (Cert.Spec.rowsBias (V c main_v41) (V c main_arg5) (V c main_v42)) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S128x64) zero_offsets,
    View.ld_unit_zero (S := S1x64) zero_offsets]
  funext j
  obtain ⟨p, q, rfl⟩ : ∃ (p : Fin 5000) (q : Fin 64), j = ix2 p q := ⟨j 0, j 1, eq_ix2 j⟩
  refine (k4_pay1_at _ _ _ p q).trans ?_
  rw [View.read_apply, oblk4_emb t p q]
  simp only [iblk4_0_apply V c t p, iblk4_1_apply V c t, iblk4_2_apply V c t q]
  rfl

/-- An index of the output array is in point `t`'s block iff each coordinate is in the block's range on its axis. -/
theorem mem_oblk4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v43).slice (win4_3.rect t)).set ↔ _
  rw [View.set_slice_whole, Rect.mem_set_unit]
  exact Iff.rfl

/-- Every index of the output array is in some point's block: row `r` is in block `r / 5000`. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  have ht : (i 0).val / 5000 < cfg4.N := by rw [hN]; omega
  obtain ⟨-, -, -, -, -, -, e30, e31⟩ := blockIndex4 ⟨(i 0).val / 5000, ht⟩
  refine ⟨⟨(i 0).val / 5000, ht⟩, flush4_3 _, ?_⟩
  rw [mem_oblk4]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    rw [e31]; omega

/-- Region 4's output array after the region: rows times the weight matrix, plus the bias row. -/
theorem final4 (c : Dev nD) : (dat4 (F := Ideal) V c).arrAt 3 cfg4.N
    = Cert.Spec.rowsBias (V c main_v41) (V c main_arg5) (V c main_v42) :=
  (dat4 V c).arrAt_eq_of_cover 3 _ (fun t _ => flushed4_eq V c t) cover4

end Cert.KernelIdeal.RegionValue

end
-- ==== Proof.RefValue.lean ====
/-
  The reference program's result as one function of its eight arguments, at the ideal instance, built from the
  pieces of a two-layer graph convolution.

  From the edge list `x7` (two rows of 1600000 index words): the source words `srcW` and destination words `dstW`
  of the 1700000 entries (the edges, then one self-loop per node); `wrap`, which adds the node count to a negative
  word; `col`, the words as a column of scatter or gather indices; `deg`, the number of entries landing on each
  node; `dinv`, its inverse square root where it is positive and zero elsewhere; `coef`, per entry the product of
  `dinv` at its source and at its destination.

  A layer (`layer X W b x7`) multiplies the node features `X` by `W`, gathers the source row of every entry,
  scales it by the entry's coefficient, adds the scaled rows into their destination rows, adds the bias and cuts off
  below at zero. The result (`out`) is two layers followed by a product with `x5` plus the bias `x6`.
-/
import proofs.«169896_j60378650247170_2_alg».proof.Proof.Gen.ReferenceIdeal
import Idealize.ShloMosaic.PureOps.Ideal

noncomputable section

namespace Cert.ReferenceIdeal.RV

open Cert.ReferenceIdeal Cert.ReferenceIdeal.Gen Idealize.ShloMosaic

/-- The source words of the entries: row 0 of the edge list, then the nodes' own numbers. -/
def srcW (x7 : IVec S2x1600000 32) : IVec S1700000 32 :=
  concatenate S1700000 0 [⟨S1600000, shapeCast S1600000 (extractStridedSlice S1x1600000 ![0, 0] x7 slices_S2x1600000_S1x1600000_0_0) shapeCasts_S1x1600000_S1600000⟩, ⟨S100000, iotaInDim S100000 32 0⟩] concatenates_S1600000_S100000_S1700000_d0

/-- The destination words of the entries: row 1 of the edge list, then the nodes' own numbers. -/
def dstW (x7 : IVec S2x1600000 32) : IVec S1700000 32 :=
  concatenate S1700000 0 [⟨S1600000, shapeCast S1600000 (extractStridedSlice S1x1600000 ![1, 0] x7 slices_S2x1600000_S1x1600000_1_0) shapeCasts_S1x1600000_S1600000⟩, ⟨S100000, iotaInDim S100000 32 0⟩] concatenates_S1600000_S100000_S1700000_d0

/-- A negative word counts from the end: the node count is added to it. -/
def wrap (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The words as a column of index vectors of one component. -/
def col (s : IVec S1700000 32) : IVec S1700000x1 32 :=
  broadcastInDim S1700000x1 ![0] bcast_S1700000_S1700000x1_0 s

/-- The number of entries whose destination is each node: ones added into zeros at the destination words. -/
def deg (x7 : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (col (dstW x7))
    (broadcastInDim S1700000 ![] bcast_S_S1700000 (constant (F := Ideal) S_ .f32 0x3F800000#32))

/-- The inverse square root of the degree where the degree is positive, zero elsewhere. -/
def dinv (x7 : IVec S2x1600000 32) : FVec Ideal S100000 .f32 :=
  select (cmpf (F := Ideal) .ogt (deg x7) (broadcastInDim S100000 ![] bcast_S_S100000 (constant (F := Ideal) S_ .f32 0x00000000#32)))
    (Host.rsqrt (F := Ideal) (deg x7))
    (broadcastInDim S100000 ![] bcast_S_S100000 (id (constant (F := Ideal) S_ .f32 0x00000000#32)))

/-- Per entry: `dinv` at the entry's source times `dinv` at its destination. -/
def coef (x7 : IVec S2x1600000 32) : FVec Ideal S1700000 .f32 :=
  mulf (F := Ideal)
    (Host.gather gather_S100000_S1700000x1_S1700000_n_0_n_n_0_1_1 (dinv x7) (col (wrap (srcW x7))))
    (Host.gather gather_S100000_S1700000x1_S1700000_n_0_n_n_0_1_1 (dinv x7) (col (wrap (dstW x7))))

/-- One graph-convolution layer followed by the cut-off at zero. -/
def layer (X : FVec Ideal S100000x128 .f32) (W : FVec Ideal S128x128 .f32) (b : FVec Ideal S128 .f32)
    (x7 : IVec S2x1600000 32) : FVec Ideal S100000x128 .f32 :=
  maximumf (F := Ideal)
    (addf (F := Ideal)
      (Host.scatterAdd (F := Ideal) scatter_S100000x128_S1700000x1_S1700000x128_1_0_0_1
        (broadcastInDim S100000x128 ![] bcast_S_S100000x128 (constant (F := Ideal) S_ .f32 0x00000000#32))
        (col (dstW x7))
        (mulf (F := Ideal)
          (Host.gather gather_S100000x128_S1700000x1_S1700000x128_1_0_n_n_0_1_1128
            (Host.dotGeneral (F := Ideal) dot_S100000x128_S128x128_S100000x128_1_0_0_1_n_n none X W) (col (wrap (srcW x7))))
          (broadcastInDim S1700000x128 ![0, 1] bcast_S1700000x1_S1700000x128_0_1
            (broadcastInDim S1700000x1 ![0] bcast_S1700000_S1700000x1_0 (coef x7)))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The reference's result: two layers, then the product with `x5` plus the bias `x6`. -/
def out (x0 : FVec Ideal S100000x128 .f32) (x1 : FVec Ideal S128x128 .f32) (x2 : FVec Ideal S128 .f32)
    (x3 : FVec Ideal S128x128 .f32) (x4 : FVec Ideal S128 .f32) (x5 : FVec Ideal S128x64 .f32) (x6 : FVec Ideal S64 .f32)
    (x7 : IVec S2x1600000 32) : FVec Ideal S100000x64 .f32 :=
  addf (F := Ideal)
    (Host.dotGeneral (F := Ideal) dot_S100000x128_S128x64_S100000x64_1_0_0_1_n_n none (layer (layer x0 x1 x2 x7) x3 x4 x7) x5)
    (broadcastInDim S100000x64 ![0, 1] bcast_S1x64_S100000x64_0_1 (broadcastInDim S1x64 ![1] bcast_S64_S1x64_1 x6))

end Cert.ReferenceIdeal.RV

end
-- ==== Proof.KerValue.lean ====
/-
  The idealized kernel program's result as one function of its eight arguments, written over the same graph pieces
  as the reference's (`RV.srcW`, `RV.dstW`, `RV.wrap`, `RV.col`, `RV.dinv`).

  A layer of the kernel program scales each product row `X·W` by `dinv` of its own node BEFORE the rows are
  gathered (`Spec.scaledRows`), adds the gathered rows into their destination rows, and only then scales each
  destination row by `dinv` of that node, adds the bias and cuts off at zero (`Spec.scaleBiasRelu`). The factor
  `dinv` enters as a column (`dcol`), the bias as a row.
-/
import proofs.«169896_j60378650247170_2_alg».proof.Proof.RefValue
import proofs.«169896_j60378650247170_2_alg».proof.Proof.Spec

noncomputable section

namespace Cert.ReferenceIdeal.KV

open Cert.ReferenceIdeal Cert.ReferenceIdeal.Gen Idealize.ShloMosaic

/-- `dinv` as a column: one factor per node. -/
def dcol (x7 : IVec S2x1600000 32) : FVec Ideal ⟨2, ![100000, 1]⟩ .f32 :=
  shapeCast ⟨2, ![100000, 1]⟩ (RV.dinv x7) (by decide)

/-- One layer of the kernel program. -/
def layer (X : FVec Ideal S100000x128 .f32) (W : FVec Ideal S128x128 .f32) (b : FVec Ideal S128 .f32)
    (x7 : IVec S2x1600000 32) : FVec Ideal S100000x128 .f32 :=
  Cert.Spec.scaleBiasRelu
    (Host.scatterAdd (F := Ideal) scatter_S100000x128_S1700000x1_S1700000x128_1_0_0_1
      (broadcastInDim S100000x128 ![] bcast_S_S100000x128 (constant (F := Ideal) S_ .f32 0x00000000#32))
      (RV.col (RV.dstW x7))
      (Host.gather gather_S100000x128_S1700000x1_S1700000x128_1_0_n_n_0_1_1128
        (Cert.Spec.scaledRows X W (dcol x7)) (RV.col (RV.wrap (RV.srcW x7)))))
    (dcol x7)
    (shapeCast ⟨2, ![1, 128]⟩ b (by decide))

/-- The kernel program's result: two layers, then the product with `x5` plus the bias row. -/
def out (x0 : FVec Ideal S100000x128 .f32) (x1 : FVec Ideal S128x128 .f32) (x2 : FVec Ideal S128 .f32)
    (x3 : FVec Ideal S128x128 .f32) (x4 : FVec Ideal S128 .f32) (x5 : FVec Ideal S128x64 .f32) (x6 : FVec Ideal S64 .f32)
    (x7 : IVec S2x1600000 32) : FVec Ideal S100000x64 .f32 :=
  Cert.Spec.rowsBias (layer (layer x0 x1 x2 x7) x3 x4 x7) x5 (shapeCast ⟨2, ![1, 64]⟩ x6 (by decide))

end Cert.ReferenceIdeal.KV

end
-- ==== Proof.KChain.lean ====
/-
  The kernel program's result buffer as a function of the argument arrays.

  Boundary by boundary through @main: the two word lists and the column of node factors after the first host
  stretches; then, for each layer, the scaled product rows a region writes (`Spec.scaledRows`), the rows gathered at
  the source words and added into the destination rows by the host, and the region that scales, adds the bias and cuts
  off at zero (`Spec.scaleBiasRelu`); last the region that multiplies by the output weights and adds the bias row
  (`Spec.rowsBias`). Every other buffer a segment reads is one it found unchanged.
-/
import proofs.«169896_j60378650247170_2_alg».proof.Proof.KKeep
import proofs.«169896_j60378650247170_2_alg».proof.Proof.RegionMatScale0
import proofs.«169896_j60378650247170_2_alg».proof.Proof.RegionScaleRelu1
import proofs.«169896_j60378650247170_2_alg».proof.Proof.RegionMatScale2
import proofs.«169896_j60378650247170_2_alg».proof.Proof.RegionScaleRelu3
import proofs.«169896_j60378650247170_2_alg».proof.Proof.RegionMatBias4
import proofs.«169896_j60378650247170_2_alg».proof.Proof.KerValue
import Idealize.ShloMosaic.Lib.StableHlo.Run

set_option maxRecDepth 16384

noncomputable section

namespace Cert.KernelIdeal.KChain

open Cert.KernelIdeal Cert.KernelIdeal.Gen Cert.KernelIdeal.RegionValue
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ) (ρ : Dev nD → PrngReg) (c : Dev nD)

/-- The edge list as launched. -/
abbrev xw : IVec S2x1600000 32 := m ((c : Thread nD τ).loc main_arg7)
/-- The seven float arguments as launched. -/
abbrev a0 : FVec Ideal S100000x128 .f32 := m ((c : Thread nD τ).loc main_arg0)
abbrev a1 : FVec Ideal S128x128 .f32 := m ((c : Thread nD τ).loc main_arg1)
abbrev a2 : FVec Ideal S128 .f32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S128x64 .f32 := m ((c : Thread nD τ).loc main_arg5)
abbrev a6 : FVec Ideal S64 .f32 := m ((c : Thread nD τ).loc main_arg6)

/-! ## The outlined selection, over variables -/

/-- The outlined `where`: the selection between `B` and the broadcast constant by the mask `A`; at literal
    references the typed references' transports are identities. -/
theorem kwhere (A : (⟨S100000, .i1⟩ : BufTy).Contents (Elt Ideal)) (B : (⟨S100000, .f32⟩ : BufTy).Contents (Elt Ideal))
    (z : (⟨S_, .f32⟩ : BufTy).Contents (Elt Ideal)) :
    (TRef.of (sig := sig) (T := ⟨S100000, .f32⟩) main_v14).toBuf (Val := Elt Ideal)
      (select ((TRef.of (sig := sig) (T := ⟨S100000, .i1⟩) main_v12).ofBuf (Val := Elt Ideal) A)
        ((TRef.of (sig := sig) (T := ⟨S100000, .f32⟩) main_v13).ofBuf (Val := Elt Ideal) B)
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal) z))))))))
      = select A B (broadcastInDim S100000 ![] bcast_S_S100000 (id z)) := rfl

/-! ## The graph pieces, after the first host stretches -/

/-- The source words. -/
theorem v5_at3 : W3 m ρ c (Proc.devRef .tc main_v5) = Cert.ReferenceIdeal.RV.srcW (xw m c) := by
  show after hostOps0_2 (after hostOps0_1 (after hostOps0 (W0 m ρ c))) (Proc.devRef .tc main_v5) = _
  after_results
  rfl

/-- The destination words. -/
theorem v6_at3 : W3 m ρ c (Proc.devRef .tc main_v6) = Cert.ReferenceIdeal.RV.dstW (xw m c) := by
  show after hostOps0_2 (after hostOps0_1 (after hostOps0 (W0 m ρ c))) (Proc.devRef .tc main_v6) = _
  after_results
  rfl

set_option maxHeartbeats 2000000 in
/-- The node factors: the inverse square root of the degree where it is positive, zero elsewhere. -/
theorem v14_at2 : W2 m ρ c (Proc.devRef .tc main_v14) = Cert.ReferenceIdeal.RV.dinv (xw m c) := by
  show after hostOps0_1 (after hostOps0 (W0 m ρ c)) (Proc.devRef .tc main_v14) = _
  after_results
  rw [kwhere]
  rfl

/-- The node factors as a column. -/
theorem v15_at3 : W3 m ρ c (Proc.devRef .tc main_v15) = Cert.ReferenceIdeal.KV.dcol (xw m c) := by
  have h := v14_at2 m ρ c
  show after hostOps0_2 (W2 m ρ c) (Proc.devRef .tc main_v15) = _
  revert h
  generalize W2 m ρ c = V2
  intro h
  after_results
  rw [h]
  rfl

/-! ## The first layer -/

/-- Region 0 leaves the product rows, each scaled by its node's factor. -/
theorem v16_at4 : W4 m ρ c (Proc.devRef .tc main_v16) = (Cert.Spec.scaledRows (a0 m c) (a1 m c) (Cert.ReferenceIdeal.KV.dcol (xw m c))) := by
  refine (W4_arr m ρ c 3).trans ((final0 (V3 m ρ) c).trans ?_)
  show Cert.Spec.scaledRows (W3 m ρ c (Proc.devRef .tc main_arg0)) (W3 m ρ c (Proc.devRef .tc main_arg1)) (W3 m ρ c (Proc.devRef .tc main_v15)) = _
  rw [keep3_main_arg0 m ρ c, keep3_main_arg1 m ρ c, v15_at3 m ρ c]

set_option maxHeartbeats 2000000 in
/-- The host gathers the scaled rows at the source words and adds them into the destination rows. -/
theorem v26_at5 : W5 m ρ c (Proc.devRef .tc main_v26) = Host.scatterAdd (F := Ideal) Cert.ReferenceIdeal.scatter_S100000x128_S1700000x1_S1700000x128_1_0_0_1
      (broadcastInDim Cert.ReferenceIdeal.S100000x128 ![] Cert.ReferenceIdeal.Gen.bcast_S_S100000x128 (constant (F := Ideal) Cert.ReferenceIdeal.S_ .f32 0x00000000#32))
      (Cert.ReferenceIdeal.RV.col (Cert.ReferenceIdeal.RV.dstW (xw m c)))
      (Host.gather Cert.ReferenceIdeal.gather_S100000x128_S1700000x1_S1700000x128_1_0_n_n_0_1_1128 (Cert.Spec.scaledRows (a0 m c) (a1 m c) (Cert.ReferenceIdeal.KV.dcol (xw m c))) (Cert.ReferenceIdeal.RV.col (Cert.ReferenceIdeal.RV.wrap (Cert.ReferenceIdeal.RV.srcW (xw m c))))) := by
  show after hostOps1 (W4 m ρ c) (Proc.devRef .tc main_v26) = _
  after_results
  rw [v16_at4 m ρ c, keep4_main_v5 m ρ c, keep4_main_v6 m ρ c, v5_at3 m ρ c, v6_at3 m ρ c]
  rfl

/-- The first bias as a row. -/
theorem v27_at5 : W5 m ρ c (Proc.devRef .tc main_v27) = shapeCast ⟨2, ![1, 128]⟩ (a2 m c) (by decide) := by
  show after hostOps1 (W4 m ρ c) (Proc.devRef .tc main_v27) = _
  after_results
  rw [keep4_main_arg2 m ρ c]
  rfl

set_option maxHeartbeats 2000000 in
/-- Region 1 scales by the destination's factor, adds the bias and cuts off at zero: the first layer. -/
theorem v28_at6 : W6 m ρ c (Proc.devRef .tc main_v28) = (Cert.ReferenceIdeal.KV.layer (a0 m c) (a1 m c) (a2 m c) (xw m c)) := by
  refine (W6_arr m ρ c 3).trans ((final1 (V5 m ρ) c).trans ?_)
  show Cert.Spec.scaleBiasRelu (W5 m ρ c (Proc.devRef .tc main_v26)) (W5 m ρ c (Proc.devRef .tc main_v15)) (W5 m ρ c (Proc.devRef .tc main_v27)) = _
  rw [v26_at5 m ρ c, keep5_main_v15 m ρ c, v15_at3 m ρ c, v27_at5 m ρ c]
  rfl

/-! ## The second layer -/

/-- Region 2 leaves the first layer's rows times the second weights, each scaled by its node's factor. -/
theorem v29_at7 : W7 m ρ c (Proc.devRef .tc main_v29) = (Cert.Spec.scaledRows (Cert.ReferenceIdeal.KV.layer (a0 m c) (a1 m c) (a2 m c) (xw m c)) (a3 m c) (Cert.ReferenceIdeal.KV.dcol (xw m c))) := by
  refine (W7_arr m ρ c 3).trans ((final2 (V6 m ρ) c).trans ?_)
  show Cert.Spec.scaledRows (W6 m ρ c (Proc.devRef .tc main_v28)) (W6 m ρ c (Proc.devRef .tc main_arg3)) (W6 m ρ c (Proc.devRef .tc main_v15)) = _
  rw [v28_at6 m ρ c, keep6_main_arg3 m ρ c, keep6_main_v15 m ρ c, v15_at3 m ρ c]

set_option maxHeartbeats 2000000 in
/-- The host gathers and adds, as in the first layer. -/
theorem v39_at8 : W8 m ρ c (Proc.devRef .tc main_v39) = Host.scatterAdd (F := Ideal) Cert.ReferenceIdeal.scatter_S100000x128_S1700000x1_S1700000x128_1_0_0_1
      (broadcastInDim Cert.ReferenceIdeal.S100000x128 ![] Cert.ReferenceIdeal.Gen.bcast_S_S100000x128 (constant (F := Ideal) Cert.ReferenceIdeal.S_ .f32 0x00000000#32))
      (Cert.ReferenceIdeal.RV.col (Cert.ReferenceIdeal.RV.dstW (xw m c)))
      (Host.gather Cert.ReferenceIdeal.gather_S100000x128_S1700000x1_S1700000x128_1_0_n_n_0_1_1128 (Cert.Spec.scaledRows (Cert.ReferenceIdeal.KV.layer (a0 m c) (a1 m c) (a2 m c) (xw m c)) (a3 m c) (Cert.ReferenceIdeal.KV.dcol (xw m c))) (Cert.ReferenceIdeal.RV.col (Cert.ReferenceIdeal.RV.wrap (Cert.ReferenceIdeal.RV.srcW (xw m c))))) := by
  show after hostOps3 (W7 m ρ c) (Proc.devRef .tc main_v39) = _
  after_results
  rw [v29_at7 m ρ c, keep7_main_v5 m ρ c, keep7_main_v6 m ρ c, v5_at3 m ρ c, v6_at3 m ρ c]
  rfl

/-- The second bias as a row. -/
theorem v40_at8 : W8 m ρ c (Proc.devRef .tc main_v40) = shapeCast ⟨2, ![1, 128]⟩ (a4 m c) (by decide) := by
  show after hostOps3 (W7 m ρ c) (Proc.devRef .tc main_v40) = _
  after_results
  rw [keep7_main_arg4 m ρ c]
  rfl

set_option maxHeartbeats 2000000 in
/-- Region 3: the second layer. -/
theorem v41_at9 : W9 m ρ c (Proc.devRef .tc main_v41) = (Cert.ReferenceIdeal.KV.layer (Cert.ReferenceIdeal.KV.layer (a0 m c) (a1 m c) (a2 m c) (xw m c)) (a3 m c) (a4 m c) (xw m c)) := by
  refine (W9_arr m ρ c 3).trans ((final3 (V8 m ρ) c).trans ?_)
  show Cert.Spec.scaleBiasRelu (W8 m ρ c (Proc.devRef .tc main_v39)) (W8 m ρ c (Proc.devRef .tc main_v15)) (W8 m ρ c (Proc.devRef .tc main_v40)) = _
  rw [v39_at8 m ρ c, keep8_main_v15 m ρ c, v15_at3 m ρ c, v40_at8 m ρ c]
  rfl

/-! ## The output layer -/

/-- The output bias as a row. -/
theorem v42_at10 : W10 m ρ c (Proc.devRef .tc main_v42) = shapeCast ⟨2, ![1, 64]⟩ (a6 m c) (by decide) := by
  show after hostOps4 (W9 m ρ c) (Proc.devRef .tc main_v42) = _
  after_results
  rw [keep9_main_arg6 m ρ c]
  rfl

set_option maxHeartbeats 2000000 in
/-- THE VALUE: the result buffer ends at the kernel program's function of the argument arrays. -/
theorem value : W11 m ρ c (Proc.devRef .tc main_v43)
    = Cert.ReferenceIdeal.KV.out (a0 m c) (a1 m c) (a2 m c) (a3 m c) (a4 m c) (a5 m c) (a6 m c) (xw m c) := by
  refine (W11_arr m ρ c 3).trans ((final4 (V10 m ρ) c).trans ?_)
  show Cert.Spec.rowsBias (W10 m ρ c (Proc.devRef .tc main_v41)) (W10 m ρ c (Proc.devRef .tc main_arg5)) (W10 m ρ c (Proc.devRef .tc main_v42)) = _
  rw [keep10_main_v41 m ρ c, v41_at9 m ρ c, keep10_main_arg5 m ρ c, v42_at10 m ρ c]
  rfl

end Cert.KernelIdeal.KChain

end
-- ==== Proof.LibAfterAppend.lean ====
/-
  The contents after two lines of host operations run one after the other: the second line's fold over the first's.
-/
import Idealize.ShloMosaic.Lib.StableHlo.Run

namespace Cert.LibAfterAppend

open Idealize.ShloMosaic Idealize.ShloMosaic.StableHlo

/-- Folding a concatenated line of operations over some contents is folding the second part over the first part's
    result. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih _

end Cert.LibAfterAppend
-- ==== Proof.RefRun.lean ====
/-
  The reference program's run: its @main is a straight line of 126 host operations, so every weakly fair execution
  terminates with each buffer at the fold of the operations over the launch contents. The list below is @main's
  operations in program order (an outlined function's operations stand at its call).
-/
import proofs.«169896_j60378650247170_2_alg».proof.Proof.Gen.ReferenceIdeal
import Idealize.ShloMosaic.Lib.StableHlo.Run
import proofs.«169896_j60378650247170_2_alg».proof.Proof.RefValue
import proofs.«169896_j60378650247170_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 126 operations, in order (a called function's operations stand in its call's place, spelt `TRef.…`). -/
abbrev ops : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg1 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg3 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x128 ![0, 1] bcast_S1700000x1_S1700000x128_0_1 : (⟨S1700000x1, .f32⟩ : BufTy).Contents (Elt F) → (⟨S1700000x128, .f32⟩ : BufTy).Contents (Elt F)),
    binary main_v81 main_v83 main_v84 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v85 (broadcastInDim S100000x128 ![] bcast_S_S100000x128 : (⟨S_, .f32⟩ : BufTy).Contents (Elt F) → (⟨S100000x128, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v90) (TRef.of (T := ⟨S100000x128, .f32⟩) main_call3_v0) (TRef.of (T := ⟨S100000x128, .f32⟩) main_v91) maximumf,
    binary main_v91 main_arg5 main_v92 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg6 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v92 main_v94 main_v95 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-! ## The four stretches of @main

The graph pieces and the first product; the first layer; the second layer (which computes the graph pieces again from
the two rows of the edge list); the output product and bias. -/

/-- The edge list's rows, the word lists, the first product, the degree and the node factors (22 operations). -/
abbrev opsG : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg1 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]
/-- The first layer from the graph pieces and the first product (41 operations). -/
abbrev opsL1 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]
/-- The second layer from the first layer's result and the edge list's rows (59 operations). -/
abbrev opsL2 : List (HloOp τ sig (Elt F)) :=
  [ binary main_v47 main_arg3 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x128 ![0, 1] bcast_S1700000x1_S1700000x128_0_1 : (⟨S1700000x1, .f32⟩ : BufTy).Contents (Elt F) → (⟨S1700000x128, .f32⟩ : BufTy).Contents (Elt F)),
    binary main_v81 main_v83 main_v84 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v85 (broadcastInDim S100000x128 ![] bcast_S_S100000x128 : (⟨S_, .f32⟩ : BufTy).Contents (Elt F) → (⟨S100000x128, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v90) (TRef.of (T := ⟨S100000x128, .f32⟩) main_call3_v0) (TRef.of (T := ⟨S100000x128, .f32⟩) main_v91) maximumf ]
/-- The output product and bias (4 operations). -/
abbrev opsO : List (HloOp τ sig (Elt F)) :=
  [ binary main_v91 main_arg5 main_v92 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg6 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v92 main_v94 main_v95 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- @main's operations are the four stretches in order. -/
theorem ops_split : (ops : List (HloOp τ sig (Elt F))) = opsG ++ (opsL1 ++ (opsL2 ++ opsO)) := rfl

/-! ## The outlined calls, over variables

An outlined function's operations read and write their buffers through typed references; at literal references the
transports are identities. Each call is stated once over VARIABLE operand contents, so that the run's large terms
are never compared through the transports. -/

/-- `where` of the first layer: the selection between `B` and the broadcast constant by the mask `A`. -/
theorem where0 (A : (⟨S100000, .i1⟩ : BufTy).Contents (Elt Ideal)) (B : (⟨S100000, .f32⟩ : BufTy).Contents (Elt Ideal))
    (z : (⟨S_, .f32⟩ : BufTy).Contents (Elt Ideal)) :
    (TRef.of (sig := sig) (T := ⟨S100000, .f32⟩) main_v15).toBuf (Val := Elt Ideal)
      (select ((TRef.of (sig := sig) (T := ⟨S100000, .i1⟩) main_v13).ofBuf (Val := Elt Ideal) A)
        ((TRef.of (sig := sig) (T := ⟨S100000, .f32⟩) main_v14).ofBuf (Val := Elt Ideal) B)
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal) z))))))))
      = select A B (broadcastInDim S100000 ![] bcast_S_S100000 (id z)) := rfl

/-- `where` of the second layer. -/
theorem where2 (A : (⟨S100000, .i1⟩ : BufTy).Contents (Elt Ideal)) (B : (⟨S100000, .f32⟩ : BufTy).Contents (Elt Ideal))
    (z : (⟨S_, .f32⟩ : BufTy).Contents (Elt Ideal)) :
    (TRef.of (sig := sig) (T := ⟨S100000, .f32⟩) main_v59).toBuf (Val := Elt Ideal)
      (select ((TRef.of (sig := sig) (T := ⟨S100000, .i1⟩) main_v57).ofBuf (Val := Elt Ideal) A)
        ((TRef.of (sig := sig) (T := ⟨S100000, .f32⟩) main_v58).ofBuf (Val := Elt Ideal) B)
        ((TRef.of (sig := sig) (T := ⟨S100000, .f32⟩) main_call2_v1).ofBuf (Val := Elt Ideal)
          ((TRef.of (sig := sig) (T := ⟨S100000, .f32⟩) main_call2_v1).toBuf (Val := Elt Ideal)
            (broadcastInDim S100000 ![] bcast_S_S100000
              ((TRef.of (sig := sig) (T := ⟨S_, .f32⟩) main_call2_v0).ofBuf (Val := Elt Ideal)
                ((TRef.of (sig := sig) (T := ⟨S_, .f32⟩) main_call2_v0).toBuf (Val := Elt Ideal)
                  (id ((TRef.of (sig := sig) (T := ⟨S_, .f32⟩) main_cst_12).ofBuf (Val := Elt Ideal) z))))))))
      = select A B (broadcastInDim S100000 ![] bcast_S_S100000 (id z)) := rfl

/-- `relu` of the first layer: the maximum with the broadcast constant. -/
theorem relu1 (A : FVec Ideal S100000x128 .f32) (z : FVec Ideal S_ .f32) :
    (TRef.of (sig := sig) (T := ⟨S100000x128, .f32⟩) main_v47).toBuf (Val := Elt Ideal)
      (maximumf (F := Ideal) (φ := .f32) ((TRef.of (sig := sig) (T := ⟨S100000x128, .f32⟩) main_v46).ofBuf (Val := Elt Ideal) A)
        ((TRef.of (sig := sig) (T := ⟨S100000x128, .f32⟩) main_call1_v0).ofBuf (Val := Elt Ideal)
          ((TRef.of (sig := sig) (T := ⟨S100000x128, .f32⟩) main_call1_v0).toBuf (Val := Elt Ideal)
            (broadcastInDim S100000x128 ![] bcast_S_S100000x128
              ((TRef.of (sig := sig) (T := ⟨S_, .f32⟩) main_call1_cst).ofBuf (Val := Elt Ideal)
                ((TRef.of (sig := sig) (T := ⟨S_, .f32⟩) main_call1_cst).toBuf (Val := Elt Ideal) z))))))
      = maximumf (F := Ideal) (φ := .f32) A (broadcastInDim S100000x128 ![] bcast_S_S100000x128 z) := rfl

/-- `relu` of the second layer. -/
theorem relu3 (A : FVec Ideal S100000x128 .f32) (z : FVec Ideal S_ .f32) :
    (TRef.of (sig := sig) (T := ⟨S100000x128, .f32⟩) main_v91).toBuf (Val := Elt Ideal)
      (maximumf (F := Ideal) (φ := .f32) ((TRef.of (sig := sig) (T := ⟨S100000x128, .f32⟩) main_v90).ofBuf (Val := Elt Ideal) A)
        ((TRef.of (sig := sig) (T := ⟨S100000x128, .f32⟩) main_call3_v0).ofBuf (Val := Elt Ideal)
          ((TRef.of (sig := sig) (T := ⟨S100000x128, .f32⟩) main_call3_v0).toBuf (Val := Elt Ideal)
            (broadcastInDim S100000x128 ![] bcast_S_S100000x128
              ((TRef.of (sig := sig) (T := ⟨S_, .f32⟩) main_call3_cst).ofBuf (Val := Elt Ideal)
                ((TRef.of (sig := sig) (T := ⟨S_, .f32⟩) main_call3_cst).toBuf (Val := Elt Ideal) z))))))
      = maximumf (F := Ideal) (φ := .f32) A (broadcastInDim S100000x128 ![] bcast_S_S100000x128 z) := rfl

/-- Reading a buffer through the operations of a line: an operation's result at its own buffer is its function's
    value of the operands' contents, at any other buffer what was there before. -/
macro "finish_reads" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ### The first stretch, from any contents `V` -/

section G
variable (V : Valuation τ sig (Elt Ideal))

set_option maxRecDepth 65536 in
theorem g_v1 : after (opsG (F := Ideal)) V (Proc.devRef .tc main_v1)
    = (fun x7 : IVec S2x1600000 32 => (shapeCast S1600000 (extractStridedSlice S1x1600000 ![0, 0] x7 slices_S2x1600000_S1x1600000_0_0) shapeCasts_S1x1600000_S1600000)) (V (Proc.devRef .tc main_arg7)) := by
  after_results_simp
  try finish_reads
  rfl
set_option maxRecDepth 65536 in
theorem g_v3 : after (opsG (F := Ideal)) V (Proc.devRef .tc main_v3)
    = (fun x7 : IVec S2x1600000 32 => (shapeCast S1600000 (extractStridedSlice S1x1600000 ![1, 0] x7 slices_S2x1600000_S1x1600000_1_0) shapeCasts_S1x1600000_S1600000)) (V (Proc.devRef .tc main_arg7)) := by
  after_results_simp
  try finish_reads
  rfl
set_option maxRecDepth 65536 in
theorem g_v4 : after (opsG (F := Ideal)) V (Proc.devRef .tc main_v4) = (Host.dotGeneral (F := Ideal) (φ₁ := .f32) (φ₂ := .f32) dot_S100000x128_S128x128_S100000x128_1_0_0_1_n_n none (V (Proc.devRef .tc main_arg0)) (V (Proc.devRef .tc main_arg1))) := by
  after_results_simp
  try finish_reads
set_option maxRecDepth 65536 in
theorem g_v6 : after (opsG (F := Ideal)) V (Proc.devRef .tc main_v6) = RV.srcW (V (Proc.devRef .tc main_arg7)) := by
  after_results_simp
  try finish_reads
  rfl
set_option maxRecDepth 65536 in
theorem g_v7 : after (opsG (F := Ideal)) V (Proc.devRef .tc main_v7) = RV.dstW (V (Proc.devRef .tc main_arg7)) := by
  after_results_simp
  try finish_reads
  rfl
set_option maxRecDepth 65536 in
set_option maxHeartbeats 1000000 in
theorem g_v15 : after (opsG (F := Ideal)) V (Proc.devRef .tc main_v15) = RV.dinv (V (Proc.devRef .tc main_arg7)) := by
  after_results_simp
  try finish_reads
  rw [where0]
  rfl
end G
theorem g_arg2 (V : Valuation τ sig (Elt Ideal)) : after (opsG (F := Ideal)) V (Proc.devRef .tc main_arg2) = V (Proc.devRef .tc main_arg2) := by
  after_results_simp
theorem g_arg3 (V : Valuation τ sig (Elt Ideal)) : after (opsG (F := Ideal)) V (Proc.devRef .tc main_arg3) = V (Proc.devRef .tc main_arg3) := by
  after_results_simp
theorem g_arg4 (V : Valuation τ sig (Elt Ideal)) : after (opsG (F := Ideal)) V (Proc.devRef .tc main_arg4) = V (Proc.devRef .tc main_arg4) := by
  after_results_simp
theorem g_arg5 (V : Valuation τ sig (Elt Ideal)) : after (opsG (F := Ideal)) V (Proc.devRef .tc main_arg5) = V (Proc.devRef .tc main_arg5) := by
  after_results_simp
theorem g_arg6 (V : Valuation τ sig (Elt Ideal)) : after (opsG (F := Ideal)) V (Proc.devRef .tc main_arg6) = V (Proc.devRef .tc main_arg6) := by
  after_results_simp

/-! ### The first layer's stretch -/

theorem l1_v1 (V : Valuation τ sig (Elt Ideal)) : after (opsL1 (F := Ideal)) V (Proc.devRef .tc main_v1) = V (Proc.devRef .tc main_v1) := by
  after_results_simp
theorem l1_v3 (V : Valuation τ sig (Elt Ideal)) : after (opsL1 (F := Ideal)) V (Proc.devRef .tc main_v3) = V (Proc.devRef .tc main_v3) := by
  after_results_simp
theorem l1_arg3 (V : Valuation τ sig (Elt Ideal)) : after (opsL1 (F := Ideal)) V (Proc.devRef .tc main_arg3) = V (Proc.devRef .tc main_arg3) := by
  after_results_simp
theorem l1_arg4 (V : Valuation τ sig (Elt Ideal)) : after (opsL1 (F := Ideal)) V (Proc.devRef .tc main_arg4) = V (Proc.devRef .tc main_arg4) := by
  after_results_simp
theorem l1_arg5 (V : Valuation τ sig (Elt Ideal)) : after (opsL1 (F := Ideal)) V (Proc.devRef .tc main_arg5) = V (Proc.devRef .tc main_arg5) := by
  after_results_simp
theorem l1_arg6 (V : Valuation τ sig (Elt Ideal)) : after (opsL1 (F := Ideal)) V (Proc.devRef .tc main_arg6) = V (Proc.devRef .tc main_arg6) := by
  after_results_simp

set_option maxRecDepth 65536 in
set_option maxHeartbeats 2000000 in
/-- The first layer's result, from contents that hold the first product, the word lists, the node factors and the
    bias. -/
theorem l1_v47 (V : Valuation τ sig (Elt Ideal)) (x0 : FVec Ideal S100000x128 .f32) (x1 : FVec Ideal S128x128 .f32)
    (x2 : FVec Ideal S128 .f32) (x7 : IVec S2x1600000 32)
    (h4 : V (Proc.devRef .tc main_v4) = (Host.dotGeneral (F := Ideal) dot_S100000x128_S128x128_S100000x128_1_0_0_1_n_n none x0 x1)) (h6 : V (Proc.devRef .tc main_v6) = RV.srcW x7)
    (h7 : V (Proc.devRef .tc main_v7) = RV.dstW x7) (h15 : V (Proc.devRef .tc main_v15) = RV.dinv x7) (h2 : V (Proc.devRef .tc main_arg2) = x2) :
    after (opsL1 (F := Ideal)) V (Proc.devRef .tc main_v47) = RV.layer x0 x1 x2 x7 := by
  after_results_simp
  try finish_reads
  rw [h4, h6, h7, h15, h2]
  rw [relu1]
  rfl

/-! ### The second layer's stretch -/

theorem l2_arg5 (V : Valuation τ sig (Elt Ideal)) : after (opsL2 (F := Ideal)) V (Proc.devRef .tc main_arg5) = V (Proc.devRef .tc main_arg5) := by
  after_results_simp
theorem l2_arg6 (V : Valuation τ sig (Elt Ideal)) : after (opsL2 (F := Ideal)) V (Proc.devRef .tc main_arg6) = V (Proc.devRef .tc main_arg6) := by
  after_results_simp

/-- The source words are the first row of the edge list, then the nodes' own numbers. -/
theorem srcW_eq (x7 : IVec S2x1600000 32) : RV.srcW x7 = concatenate S1700000 0 [⟨S1600000, (shapeCast S1600000 (extractStridedSlice S1x1600000 ![0, 0] x7 slices_S2x1600000_S1x1600000_0_0) shapeCasts_S1x1600000_S1600000)⟩, ⟨S100000, iotaInDim S100000 32 0⟩] concatenates_S1600000_S100000_S1700000_d0 := rfl
/-- The destination words are the second row of the edge list, then the nodes' own numbers. -/
theorem dstW_eq (x7 : IVec S2x1600000 32) : RV.dstW x7 = concatenate S1700000 0 [⟨S1600000, (shapeCast S1600000 (extractStridedSlice S1x1600000 ![1, 0] x7 slices_S2x1600000_S1x1600000_1_0) shapeCasts_S1x1600000_S1600000)⟩, ⟨S100000, iotaInDim S100000 32 0⟩] concatenates_S1600000_S100000_S1700000_d0 := rfl

set_option maxRecDepth 65536 in
set_option maxHeartbeats 4000000 in
/-- The second layer's result, from contents that hold the first layer's result, the edge list's two rows, the
    second weights and bias. The stretch computes the word lists, the degree and the node factors again. -/
theorem l2_v91 (V : Valuation τ sig (Elt Ideal)) (h : FVec Ideal S100000x128 .f32) (x3 : FVec Ideal S128x128 .f32)
    (x4 : FVec Ideal S128 .f32) (x7 : IVec S2x1600000 32)
    (h47 : V (Proc.devRef .tc main_v47) = h) (h1 : V (Proc.devRef .tc main_v1) = (shapeCast S1600000 (extractStridedSlice S1x1600000 ![0, 0] x7 slices_S2x1600000_S1x1600000_0_0) shapeCasts_S1x1600000_S1600000)) (h3 : V (Proc.devRef .tc main_v3) = (shapeCast S1600000 (extractStridedSlice S1x1600000 ![1, 0] x7 slices_S2x1600000_S1x1600000_1_0) shapeCasts_S1x1600000_S1600000))
    (ha3 : V (Proc.devRef .tc main_arg3) = x3) (ha4 : V (Proc.devRef .tc main_arg4) = x4) :
    after (opsL2 (F := Ideal)) V (Proc.devRef .tc main_v91) = RV.layer h x3 x4 x7 := by
  after_results_simp
  try finish_reads
  rw [h47, h1, h3, ha3, ha4]
  rw [← srcW_eq, ← dstW_eq]
  rw [where2, relu3]
  rfl

/-! ### The output stretch -/

set_option maxRecDepth 65536 in
theorem o_v95 (V : Valuation τ sig (Elt Ideal)) (h : FVec Ideal S100000x128 .f32) (x5 : FVec Ideal S128x64 .f32) (x6 : FVec Ideal S64 .f32)
    (h91 : V (Proc.devRef .tc main_v91) = h) (h5 : V (Proc.devRef .tc main_arg5) = x5) (h6 : V (Proc.devRef .tc main_arg6) = x6) :
    after (opsO (F := Ideal)) V (Proc.devRef .tc main_v95)
      = addf (F := Ideal) (Host.dotGeneral (F := Ideal) dot_S100000x128_S128x64_S100000x64_1_0_0_1_n_n none h x5)
          (broadcastInDim S100000x64 ![0, 1] bcast_S1x64_S100000x64_0_1 (broadcastInDim S1x64 ![1] bcast_S64_S1x64_1 x6)) := by
  after_results_simp
  try finish_reads
  rw [h91, h5, h6]

/-! ## The result -/

/-- From any contents `V`, the result buffer after @main's operations is the reference's function `RV.out` of the
    argument arrays: the four stretches in turn, each entered with what the earlier ones left. -/
theorem result_eq (V : Valuation τ sig (Elt Ideal)) :
    after (ops (F := Ideal)) V (Proc.devRef .tc main_v95)
      = RV.out (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, Cert.LibAfterAppend.after_append, Cert.LibAfterAppend.after_append, Cert.LibAfterAppend.after_append]
  refine o_v95 _ _ _ _ ?_ ?_ ?_
  · refine l2_v91 _ _ _ _ (V (Proc.devRef .tc main_arg7)) ?_ ?_ ?_ ?_ ?_
    · exact l1_v47 _ _ _ _ (V (Proc.devRef .tc main_arg7)) (g_v4 V) (g_v6 V) (g_v7 V) (g_v15 V) (g_arg2 V)
    · exact (l1_v1 _).trans (g_v1 V)
    · exact (l1_v3 _).trans (g_v3 V)
    · exact (l1_arg3 _).trans (g_arg3 V)
    · exact (l1_arg4 _).trans (g_arg4 V)
  · exact (l2_arg5 _).trans ((l1_arg5 _).trans (g_arg5 V))
  · exact (l2_arg6 _).trans ((l1_arg6 _).trans (g_arg6 V))

/-! ## The run -/

theorem kept_arg0 (V : Valuation τ sig (Elt Ideal)) : after (ops (F := Ideal)) V (Proc.devRef .tc main_arg0) = V (Proc.devRef .tc main_arg0) := by
  after_results_simp
theorem kept_arg1 (V : Valuation τ sig (Elt Ideal)) : after (ops (F := Ideal)) V (Proc.devRef .tc main_arg1) = V (Proc.devRef .tc main_arg1) := by
  after_results_simp
theorem kept_arg2 (V : Valuation τ sig (Elt Ideal)) : after (ops (F := Ideal)) V (Proc.devRef .tc main_arg2) = V (Proc.devRef .tc main_arg2) := by
  after_results_simp
theorem kept_arg3 (V : Valuation τ sig (Elt Ideal)) : after (ops (F := Ideal)) V (Proc.devRef .tc main_arg3) = V (Proc.devRef .tc main_arg3) := by
  after_results_simp
theorem kept_arg4 (V : Valuation τ sig (Elt Ideal)) : after (ops (F := Ideal)) V (Proc.devRef .tc main_arg4) = V (Proc.devRef .tc main_arg4) := by
  after_results_simp
theorem kept_arg5 (V : Valuation τ sig (Elt Ideal)) : after (ops (F := Ideal)) V (Proc.devRef .tc main_arg5) = V (Proc.devRef .tc main_arg5) := by
  after_results_simp
theorem kept_arg6 (V : Valuation τ sig (Elt Ideal)) : after (ops (F := Ideal)) V (Proc.devRef .tc main_arg6) = V (Proc.devRef .tc main_arg6) := by
  after_results_simp
theorem kept_arg7 (V : Valuation τ sig (Elt Ideal)) : after (ops (F := Ideal)) V (Proc.devRef .tc main_arg7) = V (Proc.devRef .tc main_arg7) := by
  after_results_simp

set_option maxRecDepth 8192 in
/-- From any memory with zero counters every weakly fair execution of the reference's @main terminates, the result
    buffer at `RV.out` of the argument arrays as launched, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = RV.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v95).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _)⟩)
    (run_seq scopedRefs_eq scopedSems_eq defs main (fun _ => ops) main_eq (fun _ => ops_sub) m ρ)

end Cert.ReferenceIdeal.RefRun

end
-- ==== Proof.LibRowGather.lean ====
/-
  Gathering rows of a matrix by a list of row numbers, read at an entry.

  `x[idx]` along the first axis of an `N×D` matrix `x`, with `idx` a list of `E` row numbers held as an `E×1` array
  of index words, is a gather whose slices are whole rows: the slice sizes are `1×D`, the row axis is collapsed and
  is the one axis the start index names, and the result's second axis runs along the slice. Result entry `(e, o)` is
  therefore `x` at row `idx[e, 0]` and column `o`, where the index word is read as a SIGNED integer and clamped so
  that the slice fits: the row axis has extent `N` and slice size `1`, so the clamp is into `[0, N − 1]` (a negative
  word gives row `0`, a word past the end gives the last row). On the column axis the start index names nothing, so
  the slice starts at `0` and the column read is the result's own column coordinate.

  The second form is the same gather on arrays that carry a leading axis of extent one: a `1×N×D` operand, the same
  `E×1` index array, and a `1×E×D` result, with slice sizes `1×1×D`. The unit axis and the column axis run along the
  slice, the row axis (now the middle one) is collapsed and clamped as before; result entry `(b, e, o)` is the
  operand at `(b, idx[e, 0] clamped, o)`.
-/
import Idealize.ShloMosaic.Lib.ValueIdx

noncomputable section

namespace Cert.LibRowGather

open Idealize.ShloMosaic Idealize.ShloMosaic.ValueIdx

/-- The row an index word names: read as a signed integer and clamped into [0, N − 1]. -/
def row (N : Nat) (hN : 0 < N) {w : Nat} (b : BitVec w) : Fin N := ⟨min b.toInt.toNat (N - 1), by omega⟩

/-- The offset coordinate on an operand axis that runs along the slice, once the axis's position `n` among the
    operand's slice axes is known: the result index's coordinate on the `n`-th offset axis. -/
theorem offCoord_of_pos {s si t : Shape} (d : GatherDims s si t) (j : t.Idx) (a : Fin s.rank) (n : Nat)
    (hn : n < d.offsetDims.length) (ha : a ∈ d.sKept) (hi : d.sKept.idxOf a = n) :
    d.offCoord j a = (j d.offsetDims[n]).val := by
  subst hi
  unfold GatherDims.offCoord
  rw [dif_pos ha]

/-- Of a matrix's two axes, the one that is not the first is the second. -/
theorem kept2 : (List.finRange 2).filter (fun a : Fin 2 => a ∉ [(0 : Fin 2)]) = [1] := by decide

/-- Of a rank-3 array's axes, the ones that are not the middle one are the first and the last. -/
theorem kept3 : (List.finRange 3).filter (fun a : Fin 3 => a ∉ [(1 : Fin 3)]) = [0, 2] := by decide

/-- The dimension numbers of the row gather of an `N×D` matrix at an `E×1` array of row numbers, with an `E×D`
    result: whole-row slices `1×D`, the row axis collapsed and named by the start index, the result's second axis
    the slice's column axis. Their conditions `wf` are decided on literal shapes. -/
abbrev dims2 (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, o)`: the matrix at the row the word `idx[e, 0]` names (signed, clamped into
    `[0, N − 1]`) and at column `o`. On the row axis the operand coordinate is the clamped start alone (a collapsed
    axis has no offset); on the column axis the start is `0` and the offset is the result's column. -/
theorem gather2_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (o : Fin D) :
    Host.gather (dims2 N E D wf) x idx (ix2 e o) = x (ix2 (row N hN (idx (ix2 e (0 : Fin 1)))) o) := by
  unfold Host.gather
  congr 1
  funext a
  refine Fin.ext ?_
  match a with
  | ⟨0, h0⟩ =>
    show (dims2 N E D wf).start (ix2 e o) idx ⟨0, h0⟩ + (dims2 N E D wf).batchCoord (ix2 e o) ⟨0, h0⟩
      + (dims2 N E D wf).offCoord (ix2 e o) ⟨0, h0⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨0, h0⟩ : Fin 2) ∈ (dims2 N E D wf).startIndexMap from List.mem_singleton.mpr (Fin.ext rfl))]
    have hsi : (dims2 N E D wf).siIdx (ix2 e o) ⟨List.idxOf (⟨0, h0⟩ : Fin 2) (dims2 N E D wf).startIndexMap,
        List.idxOf_lt_length_iff.2 (List.mem_singleton.mpr (Fin.ext rfl))⟩ = ix2 e (0 : Fin 1) := by
      funext b; refine Fin.ext ?_
      match b with
      | ⟨0, _⟩ => rfl
      | ⟨1, _⟩ => rfl
    rw [hsi]
    rfl
  | ⟨1, h1⟩ =>
    show (dims2 N E D wf).start (ix2 e o) idx ⟨1, h1⟩ + (dims2 N E D wf).batchCoord (ix2 e o) ⟨1, h1⟩
      + (dims2 N E D wf).offCoord (ix2 e o) ⟨1, h1⟩ = _
    have hst : (dims2 N E D wf).start (ix2 e o) idx ⟨1, h1⟩ = 0 := by
      unfold GatherDims.start
      rw [dif_neg (fun h => absurd (show (1 : Nat) = 0 from congrArg Fin.val (List.mem_singleton.mp h)) (by decide))]
    rw [hst, GatherDims.batchCoord_eq_zero _ _ _ List.not_mem_nil]
    have hk : (dims2 N E D wf).sKept = [1] := kept2
    rw [offCoord_of_pos (dims2 N E D wf) (ix2 e o) ⟨1, h1⟩ 0 (show (0 : Nat) < 1 from Nat.one_pos)
      ((GatherDims.mem_sKept _ _).mpr ⟨fun h => absurd (show (1 : Nat) = 0 from congrArg Fin.val (List.mem_singleton.mp h)) (by decide), List.not_mem_nil⟩)
      (by rw [hk]; rfl)]
    rw [Nat.zero_add]
    rfl

/-- The dimension numbers of the same gather on arrays with a leading unit axis: a `1×N×D` operand, an `E×1` array
    of row numbers and a `1×E×D` result; slices `1×1×D`, the row axis (the middle one) collapsed and named by the
    start index, the result's first and last axes the slice's unit and column axes. -/
abbrev dims3 (N E D : Nat) (wf : GatherDims.WF ⟨3, ![1, N, D]⟩ ⟨2, ![E, 1]⟩ ⟨3, ![1, E, D]⟩ [0, 2] [1] [] [1] [] 1 ![1, 1, D]) :
    GatherDims ⟨3, ![1, N, D]⟩ ⟨2, ![E, 1]⟩ ⟨3, ![1, E, D]⟩ where
  offsetDims := [0, 2]
  collapsedSliceDims := [1]
  operandBatchingDims := []
  startIndicesBatchingDims := []
  startIndexMap := [1]
  indexVectorDim := 1
  sliceSizes := ![1, 1, D]
  wf := wf

/-- The gather with a leading unit axis read at `(b, e, o)`: the operand at `(b, row, o)` with `row` the row the
    word `idx[e, 0]` names (signed, clamped into `[0, N − 1]`). The unit and column axes start at `0` and take the
    result's coordinates as offsets; the row axis is the clamped start alone. -/
theorem gather3_apply {α : Type} {N E D w : Nat} (hN : 0 < N)
    (wf : GatherDims.WF ⟨3, ![1, N, D]⟩ ⟨2, ![E, 1]⟩ ⟨3, ![1, E, D]⟩ [0, 2] [1] [] [1] [] 1 ![1, 1, D])
    (x : (⟨3, ![1, N, D]⟩ : Shape).Idx → α) (idx : IVec ⟨2, ![E, 1]⟩ w) (b : Fin 1) (e : Fin E) (o : Fin D) :
    Host.gather (dims3 N E D wf) x idx (ix3 b e o) = x (ix3 b (row N hN (idx (ix2 e (0 : Fin 1)))) o) := by
  unfold Host.gather
  congr 1
  funext a
  refine Fin.ext ?_
  match a with
  | ⟨0, h0⟩ =>
    show (dims3 N E D wf).start (ix3 b e o) idx ⟨0, h0⟩ + (dims3 N E D wf).batchCoord (ix3 b e o) ⟨0, h0⟩
      + (dims3 N E D wf).offCoord (ix3 b e o) ⟨0, h0⟩ = _
    have hst : (dims3 N E D wf).start (ix3 b e o) idx ⟨0, h0⟩ = 0 := by
      unfold GatherDims.start
      rw [dif_neg (fun h => absurd (show (0 : Nat) = 1 from congrArg Fin.val (List.mem_singleton.mp h)) (by decide))]
    rw [hst, GatherDims.batchCoord_eq_zero _ _ _ List.not_mem_nil]
    have hk : (dims3 N E D wf).sKept = [0, 2] := kept3
    rw [offCoord_of_pos (dims3 N E D wf) (ix3 b e o) ⟨0, h0⟩ 0 (show (0 : Nat) < 2 from Nat.two_pos)
      ((GatherDims.mem_sKept _ _).mpr ⟨fun h => absurd (show (0 : Nat) = 1 from congrArg Fin.val (List.mem_singleton.mp h)) (by decide), List.not_mem_nil⟩)
      (by rw [hk]; rfl)]
    rw [Nat.zero_add]
    rfl
  | ⟨1, h1⟩ =>
    show (dims3 N E D wf).start (ix3 b e o) idx ⟨1, h1⟩ + (dims3 N E D wf).batchCoord (ix3 b e o) ⟨1, h1⟩
      + (dims3 N E D wf).offCoord (ix3 b e o) ⟨1, h1⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨1, h1⟩ : Fin 3) ∈ (dims3 N E D wf).startIndexMap from List.mem_singleton.mpr (Fin.ext rfl))]
    have hsi : (dims3 N E D wf).siIdx (ix3 b e o) ⟨List.idxOf (⟨1, h1⟩ : Fin 3) (dims3 N E D wf).startIndexMap,
        List.idxOf_lt_length_iff.2 (List.mem_singleton.mpr (Fin.ext rfl))⟩ = ix2 e (0 : Fin 1) := by
      funext c; refine Fin.ext ?_
      match c with
      | ⟨0, _⟩ => rfl
      | ⟨1, _⟩ => rfl
    rw [hsi]
    rfl
  | ⟨2, h2⟩ =>
    show (dims3 N E D wf).start (ix3 b e o) idx ⟨2, h2⟩ + (dims3 N E D wf).batchCoord (ix3 b e o) ⟨2, h2⟩
      + (dims3 N E D wf).offCoord (ix3 b e o) ⟨2, h2⟩ = _
    have hst : (dims3 N E D wf).start (ix3 b e o) idx ⟨2, h2⟩ = 0 := by
      unfold GatherDims.start
      rw [dif_neg (fun h => absurd (show (2 : Nat) = 1 from congrArg Fin.val (List.mem_singleton.mp h)) (by decide))]
    rw [hst, GatherDims.batchCoord_eq_zero _ _ _ List.not_mem_nil]
    have hk : (dims3 N E D wf).sKept = [0, 2] := kept3
    rw [offCoord_of_pos (dims3 N E D wf) (ix3 b e o) ⟨2, h2⟩ 1 (show (1 : Nat) < 2 from Nat.one_lt_two)
      ((GatherDims.mem_sKept _ _).mpr ⟨fun h => absurd (show (2 : Nat) = 1 from congrArg Fin.val (List.mem_singleton.mp h)) (by decide), List.not_mem_nil⟩)
      (by rw [hk]; rfl)]
    rw [Nat.zero_add]
    rfl

end Cert.LibRowGather

end
-- ==== Proof.LibUnitAxis.lean ====
/-
  An array with a leading axis of extent one, and the same array without it.

  An index (b, p, q) of a 1 x A x B array has b = 0, so dropping b is a bijection onto the indices (p, q) of an A x B
  array; `low` drops the unit coordinate, `up` restores it, and `lowEquiv` is the bijection, through which a sum over
  one index set is re-indexed as a sum over the other.
-/
import Idealize.ShloMosaic.Lib.ValueIdx

noncomputable section

namespace Cert.LibUnitAxis

open Idealize.ShloMosaic Idealize.ShloMosaic.ValueIdx

/-- The index (p, q) of an A x B array under the index (0, p, q) of the 1 x A x B array. -/
def low {A B : Nat} (i : (⟨3, ![1, A, B]⟩ : Shape).Idx) : (⟨2, ![A, B]⟩ : Shape).Idx :=
  ix2 (n0 := A) (n1 := B) (i 1) (i 2)

/-- The index (0, p, q) of the 1 x A x B array over the index (p, q). -/
def up {A B : Nat} (j : (⟨2, ![A, B]⟩ : Shape).Idx) : (⟨3, ![1, A, B]⟩ : Shape).Idx :=
  ix3 (n0 := 1) (n1 := A) (n2 := B) (0 : Fin 1) (j 0) (j 1)

theorem low_ix3 {A B : Nat} (b : Fin 1) (p : Fin A) (q : Fin B) : low (ix3 b p q) = ix2 p q := rfl
theorem up_ix2 {A B : Nat} (p : Fin A) (q : Fin B) : up (ix2 p q) = ix3 (0 : Fin 1) p q := rfl

theorem low_up {A B : Nat} (j : (⟨2, ![A, B]⟩ : Shape).Idx) : low (up j) = j := (eq_ix2 j).symm

theorem up_low {A B : Nat} (i : (⟨3, ![1, A, B]⟩ : Shape).Idx) : up (low i) = i := by
  funext a
  match a with
  | ⟨0, _⟩ => exact Subsingleton.elim (α := Fin 1) _ _
  | ⟨1, _⟩ => rfl
  | ⟨2, _⟩ => rfl

/-- Dropping the unit coordinate is a bijection of the two index sets. -/
def lowEquiv {A B : Nat} : (⟨3, ![1, A, B]⟩ : Shape).Idx ≃ (⟨2, ![A, B]⟩ : Shape).Idx where
  toFun := low
  invFun := up
  left_inv := up_low
  right_inv := low_up

theorem low_injective {A B : Nat} : Function.Injective (low (A := A) (B := B)) := lowEquiv.injective

end Cert.LibUnitAxis

end
-- ==== Proof.LibRowScatter.lean ====
/-
  Accumulating rows into a matrix, with and without a leading axis of extent one.

  A scatter with an addition body takes an N x D operand, a list of E row numbers (one index word per update row) and
  an E x D array of updates, and adds update row e into operand row z(e), where z(e) is the e-th index word read as a
  signed integer; a row number outside [0, N) drops its update row. In the exact model the result element (n, o) is the
  operand element plus the sum of the update elements (e, o) with z(e) = n.

  The same accumulation can be written on arrays that carry a leading axis of extent one: a 1 x N x D operand and
  1 x E x D updates, the unit axis and the last axis being window axes and the middle axis the scattered one. This
  file proves that the two say the same thing, for all extents: reading the rank-3 result at (b, n, o) is reading the
  rank-2 result at (n, o).

  The proof computes, for both sets of dimension numbers, the start and the window coordinate on each operand axis
  (`start2_0` ... `window3_2`): the scattered axis starts at z(e) with window coordinate 0, every other axis starts
  at 0 with the update's own coordinate as window coordinate. An update index therefore lands on a given operand index
  exactly when z(e) is that index's row and the column coordinates agree (`resultIdx2`, `resultIdx3`); the unit axis
  adds no condition, since both of its coordinates are 0. So dropping the unit coordinate carries the set of updates
  landing on (b, n, o) bijectively onto the set of updates landing on (n, o) (`resultIdx_low`), and the two sums agree
  term by term (`scatterAdd_low`).
-/
import Idealize.ShloMosaic.Lib.ValueIdx
import Idealize.ShloMosaic.PureOps.Ideal
import proofs.«169896_j60378650247170_2_alg».proof.Proof.LibUnitAxis

noncomputable section

namespace Cert.LibRowScatter

open Idealize.ShloMosaic Idealize.ShloMosaic.ValueIdx Cert.LibUnitAxis

/-- The dimension numbers of the row accumulation on an N x D operand: E scatter indices of one component each,
    naming a row (operand axis 0, which is the inserted window axis); the updates are E x D, their axis 1 the window
    over the operand's columns. -/
abbrev sdims2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of the same accumulation on a 1 x N x D operand: the scatter indices name a coordinate on
    operand axis 1 (the inserted window axis); the updates are 1 x E x D, their axes 0 and 2 the windows over the
    operand's unit axis and its columns. -/
abbrev sdims3 (N E D : Nat) (wf : ScatterDims.WF ⟨3, ![1, N, D]⟩ ⟨2, ![E, 1]⟩ ⟨3, ![1, E, D]⟩ [0, 2] [1] [1] 1) :
    ScatterDims ⟨3, ![1, N, D]⟩ ⟨2, ![E, 1]⟩ ⟨3, ![1, E, D]⟩ where
  updateWindowDims := [0, 2]
  insertedWindowDims := [1]
  scatterDimsToOperandDims := [1]
  indexVectorDim := 1
  wf := wf

/-! ## Where an update lands, in general

An update index lands on operand index `i` exactly when start plus window coordinate equals `i`'s coordinate on every
axis: being inside the operand is then automatic, because `i` is. -/

/-- For any scatter dimension numbers: the result index of update index `j` is `i` if and only if, on every operand
    axis, the (signed, unclamped) start plus the window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some_inj]
    constructor
    · intro hi a
      have := h a
      rw [← hi]
      show _ = (((d.start j idx a + (d.window j a : Int)).toNat : Nat) : Int)
      omega
    · intro hi
      funext a
      refine Fin.ext ?_
      show (d.start j idx a + (d.window j a : Int)).toNat = (i a).val
      have := hi a
      omega
  · rename_i h
    constructor
    · intro hi; exact absurd hi (by simp)
    · intro hi
      exfalso
      apply h
      intro a
      have := hi a
      have := (i a).isLt
      omega

section
variable {N E D w : Nat}
  (wf2 : ScatterDims.WF ⟨2, ![N, D]⟩ ⟨2, ![E, 1]⟩ ⟨2, ![E, D]⟩ [1] [0] [0] 1)
  (wf3 : ScatterDims.WF ⟨3, ![1, N, D]⟩ ⟨2, ![E, 1]⟩ ⟨3, ![1, E, D]⟩ [0, 2] [1] [1] 1)

/-! ## Starts and window coordinates of the rank-2 accumulation -/

/-- The row axis is an inserted window axis: its window coordinate is 0. -/
theorem window2_0 (j : (⟨2, ![E, D]⟩ : Shape).Idx) : (sdims2 N E D wf2).window j 0 = 0 := rfl
/-- The column axis is the window axis: its window coordinate is the update's column. -/
theorem window2_1 (j : (⟨2, ![E, D]⟩ : Shape).Idx) : (sdims2 N E D wf2).window j 1 = (j 1).val := rfl
/-- The column axis is not named by the scatter indices: it starts at 0. -/
theorem start2_1 (j : (⟨2, ![E, D]⟩ : Shape).Idx) (idx : IVec ⟨2, ![E, 1]⟩ w) : (sdims2 N E D wf2).start j idx 1 = 0 := rfl
/-- Update (e, o) reads its start index at position (e, 0) of the scatter indices. -/
theorem siIdx2 (j : (⟨2, ![E, D]⟩ : Shape).Idx) (c : Fin 1) : (sdims2 N E D wf2).siIdx j c = ix2 (j 0) (0 : Fin 1) := by
  funext b; refine Fin.ext ?_
  match b with
  | ⟨0, _⟩ => rfl
  | ⟨1, _⟩ => exact congrArg Fin.val (Subsingleton.elim (α := Fin 1) _ _)
/-- The row axis starts at the row number of update row e: the index word at (e, 0), read signed. -/
theorem start2_0 (j : (⟨2, ![E, D]⟩ : Shape).Idx) (idx : IVec ⟨2, ![E, 1]⟩ w) :
    (sdims2 N E D wf2).start j idx 0 = (idx (ix2 (j 0) (0 : Fin 1))).toInt := by
  unfold ScatterDims.start
  rw [dif_pos (show (0 : Fin 2) ∈ (sdims2 N E D wf2).scatterDimsToOperandDims from List.mem_singleton.mpr rfl)]
  rw [siIdx2]
  rfl

/-! ## Starts and window coordinates of the rank-3 accumulation -/

/-- The unit axis is a window axis: its window coordinate is the update's unit coordinate. -/
theorem window3_0 (j : (⟨3, ![1, E, D]⟩ : Shape).Idx) : (sdims3 N E D wf3).window j 0 = (j 0).val := rfl
/-- The row axis is an inserted window axis: its window coordinate is 0. -/
theorem window3_1 (j : (⟨3, ![1, E, D]⟩ : Shape).Idx) : (sdims3 N E D wf3).window j 1 = 0 := rfl
/-- The column axis is a window axis: its window coordinate is the update's column. -/
theorem window3_2 (j : (⟨3, ![1, E, D]⟩ : Shape).Idx) : (sdims3 N E D wf3).window j 2 = (j 2).val := rfl
/-- The unit axis is not named by the scatter indices: it starts at 0. -/
theorem start3_0 (j : (⟨3, ![1, E, D]⟩ : Shape).Idx) (idx : IVec ⟨2, ![E, 1]⟩ w) : (sdims3 N E D wf3).start j idx 0 = 0 := rfl
/-- The column axis is not named by the scatter indices: it starts at 0. -/
theorem start3_2 (j : (⟨3, ![1, E, D]⟩ : Shape).Idx) (idx : IVec ⟨2, ![E, 1]⟩ w) : (sdims3 N E D wf3).start j idx 2 = 0 := rfl
/-- Update (b, e, o) reads its start index at position (e, 0) of the scatter indices. -/
theorem siIdx3 (j : (⟨3, ![1, E, D]⟩ : Shape).Idx) (c : Fin 1) : (sdims3 N E D wf3).siIdx j c = ix2 (j 1) (0 : Fin 1) := by
  funext b; refine Fin.ext ?_
  match b with
  | ⟨0, _⟩ => rfl
  | ⟨1, _⟩ => exact congrArg Fin.val (Subsingleton.elim (α := Fin 1) _ _)
/-- The row axis starts at the row number of update row e: the index word at (e, 0), read signed. -/
theorem start3_1 (j : (⟨3, ![1, E, D]⟩ : Shape).Idx) (idx : IVec ⟨2, ![E, 1]⟩ w) :
    (sdims3 N E D wf3).start j idx 1 = (idx (ix2 (j 1) (0 : Fin 1))).toInt := by
  unfold ScatterDims.start
  rw [dif_pos (show (1 : Fin 3) ∈ (sdims3 N E D wf3).scatterDimsToOperandDims from List.mem_singleton.mpr rfl)]
  rw [siIdx3]
  rfl

/-! ## Where an update lands, for the two accumulations -/

/-- Rank 2: update (e, o) lands on operand element (n, o') exactly when the row number of e is n and o = o'. -/
theorem resultIdx2 (j : (⟨2, ![E, D]⟩ : Shape).Idx) (idx : IVec ⟨2, ![E, 1]⟩ w) (i : (⟨2, ![N, D]⟩ : Shape).Idx) :
    (sdims2 N E D wf2).resultIdx? j idx = some i ↔
      (idx (ix2 (j 0) (0 : Fin 1))).toInt = ((i 0).val : Int) ∧ (j 1).val = (i 1).val := by
  rw [resultIdx?_eq_some_iff]
  constructor
  · intro h
    have h0 := h 0
    have h1 := h 1
    rw [start2_0, window2_0] at h0
    rw [start2_1, window2_1] at h1
    exact ⟨by omega, by omega⟩
  · rintro ⟨h0, h1⟩ a
    match a with
    | ⟨0, _⟩ =>
      show (sdims2 N E D wf2).start j idx 0 + ((sdims2 N E D wf2).window j 0 : Int) = ((i 0).val : Int)
      rw [start2_0, window2_0]; omega
    | ⟨1, _⟩ =>
      show (sdims2 N E D wf2).start j idx 1 + ((sdims2 N E D wf2).window j 1 : Int) = ((i 1).val : Int)
      rw [start2_1, window2_1]; omega

/-- Rank 3: update (b, e, o) lands on operand element (b', n, o') exactly when the row number of e is n and o = o';
    the unit coordinates b and b' are both 0 and add no condition. -/
theorem resultIdx3 (j : (⟨3, ![1, E, D]⟩ : Shape).Idx) (idx : IVec ⟨2, ![E, 1]⟩ w) (i : (⟨3, ![1, N, D]⟩ : Shape).Idx) :
    (sdims3 N E D wf3).resultIdx? j idx = some i ↔
      (idx (ix2 (j 1) (0 : Fin 1))).toInt = ((i 1).val : Int) ∧ (j 2).val = (i 2).val := by
  rw [resultIdx?_eq_some_iff]
  constructor
  · intro h
    have h1 := h 1
    have h2 := h 2
    rw [start3_1, window3_1] at h1
    rw [start3_2, window3_2] at h2
    exact ⟨by omega, by omega⟩
  · rintro ⟨h1, h2⟩ a
    match a with
    | ⟨0, _⟩ =>
      show (sdims3 N E D wf3).start j idx 0 + ((sdims3 N E D wf3).window j 0 : Int) = ((i 0).val : Int)
      rw [start3_0, window3_0]
      have hj : (j 0).val < 1 := (j 0).isLt
      have hi : (i 0).val < 1 := (i 0).isLt
      omega
    | ⟨1, _⟩ =>
      show (sdims3 N E D wf3).start j idx 1 + ((sdims3 N E D wf3).window j 1 : Int) = ((i 1).val : Int)
      rw [start3_1, window3_1]; omega
    | ⟨2, _⟩ =>
      show (sdims3 N E D wf3).start j idx 2 + ((sdims3 N E D wf3).window j 2 : Int) = ((i 2).val : Int)
      rw [start3_2, window3_2]; omega

/-- Rank 2, computed: when the row number z of update row e is inside [0, N), update (e, o) lands on (z, o). -/
theorem resultIdx2_some (j : (⟨2, ![E, D]⟩ : Shape).Idx) (idx : IVec ⟨2, ![E, 1]⟩ w)
    (h0 : 0 ≤ (idx (ix2 (j 0) (0 : Fin 1))).toInt) (hN : (idx (ix2 (j 0) (0 : Fin 1))).toInt < N) :
    (sdims2 N E D wf2).resultIdx? j idx
      = some (ix2 (n0 := N) (n1 := D) ⟨(idx (ix2 (j 0) (0 : Fin 1))).toInt.toNat, by omega⟩ (j 1)) := by
  rw [resultIdx2]
  refine ⟨?_, rfl⟩
  show _ = (((idx (ix2 (j 0) (0 : Fin 1))).toInt.toNat : Nat) : Int)
  omega

/-- Rank 2, computed: when the row number of update row e is outside [0, N), update (e, o) is dropped. -/
theorem resultIdx2_none (j : (⟨2, ![E, D]⟩ : Shape).Idx) (idx : IVec ⟨2, ![E, 1]⟩ w)
    (h : ¬ (0 ≤ (idx (ix2 (j 0) (0 : Fin 1))).toInt ∧ (idx (ix2 (j 0) (0 : Fin 1))).toInt < N)) :
    (sdims2 N E D wf2).resultIdx? j idx = none := by
  rw [Option.eq_none_iff_forall_ne_some]
  intro i hi
  rw [resultIdx2] at hi
  have hlt : (i 0).val < N := (i 0).isLt
  omega

/-- Dropping the unit coordinate on both sides: update index `j` of the rank-3 accumulation lands on `i` exactly when
    the update index under `j` lands, in the rank-2 accumulation, on the index under `i`. -/
theorem resultIdx_low (j : (⟨3, ![1, E, D]⟩ : Shape).Idx) (idx : IVec ⟨2, ![E, 1]⟩ w) (i : (⟨3, ![1, N, D]⟩ : Shape).Idx) :
    (sdims3 N E D wf3).resultIdx? j idx = some i ↔ (sdims2 N E D wf2).resultIdx? (low j) idx = some (low i) := by
  rw [resultIdx3, resultIdx2]
  exact Iff.rfl

end

/-- THE LAW. Accumulating the rows of `U` into `X` at the row numbers `idx`, written on arrays with a leading unit axis,
    is the accumulation on the arrays without it: the element at (b, n, o) of the one is the element at (n, o) of the
    other. The operand terms are the same element; the sums run over the updates landing on (b, n, o) and on (n, o),
    and dropping the unit coordinate is a bijection between these two sets that preserves the summand. -/
theorem scatterAdd_low {N E D w : Nat}
    (wf2 : ScatterDims.WF ⟨2, ![N, D]⟩ ⟨2, ![E, 1]⟩ ⟨2, ![E, D]⟩ [1] [0] [0] 1)
    (wf3 : ScatterDims.WF ⟨3, ![1, N, D]⟩ ⟨2, ![E, 1]⟩ ⟨3, ![1, E, D]⟩ [0, 2] [1] [1] 1)
    (X : (⟨2, ![N, D]⟩ : Shape).Idx → EReal) (idx : IVec ⟨2, ![E, 1]⟩ w) (U : (⟨2, ![E, D]⟩ : Shape).Idx → EReal)
    (i : (⟨3, ![1, N, D]⟩ : Shape).Idx) :
    Ideal.hostScatterAdd (sdims3 N E D wf3) (fun i' => X (low i')) idx (fun j => U (low j)) i
      = Ideal.hostScatterAdd (sdims2 N E D wf2) X idx U (low i) := by
  unfold Ideal.hostScatterAdd
  congr 1
  refine Finset.sum_equiv (lowEquiv (A := E) (B := D)) ?_ ?_
  · intro j
    rw [Finset.mem_filter, Finset.mem_filter]
    simp only [Finset.mem_univ, true_and]
    exact resultIdx_low wf2 wf3 j idx i
  · intro j _
    rfl

end Cert.LibRowScatter

end
-- ==== Proof.LibGather1.lean ====
/-
  Gathering entries of a list by a list of positions, read at an entry.

  `x[idx]` for a list `x` of `N` entries and `idx` a list of `E` positions held as an `E×1` array of index
  words is a gather whose slices are single entries: the slice size is `1`, the one operand axis is collapsed and
  is the axis the start index names, and the result has no slice axis. Result entry `e` is therefore `x` at the
  position the word `idx[e, 0]` names, the word read as a SIGNED integer and clamped so that the slice fits: into
  `[0, N − 1]` (a negative word gives position `0`, a word past the end the last position).
-/
import Idealize.ShloMosaic.Lib.ValueIdx

noncomputable section

namespace Cert.LibGather1

open Idealize.ShloMosaic Idealize.ShloMosaic.ValueIdx

/-- The position an index word names: read as a signed integer and clamped into [0, N − 1]. -/
def pos (N : Nat) (hN : 0 < N) {w : Nat} (b : BitVec w) : Fin N := ⟨min b.toInt.toNat (N - 1), by omega⟩

/-- The dimension numbers of the gather of single entries of a list of `N` at an `E×1` array of positions, with a
    result of `E` entries. -/
abbrev dims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e`: the list at the position the word `idx[e, 0]` names (signed, clamped into
    `[0, N − 1]`). On the one operand axis the coordinate is the clamped start alone: a collapsed axis has no
    offset, and nothing is batched. -/
theorem gather1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (dims1 N E wf) x idx (ix1 e) = x (ix1 (pos N hN (idx (ix2 e (0 : Fin 1))))) := by
  unfold Host.gather
  congr 1
  funext a
  refine Fin.ext ?_
  match a with
  | ⟨0, h0⟩ =>
    show (dims1 N E wf).start (ix1 e) idx ⟨0, h0⟩ + (dims1 N E wf).batchCoord (ix1 e) ⟨0, h0⟩
      + (dims1 N E wf).offCoord (ix1 e) ⟨0, h0⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨0, h0⟩ : Fin 1) ∈ (dims1 N E wf).startIndexMap from List.mem_singleton.mpr (Fin.ext rfl))]
    have hsi : (dims1 N E wf).siIdx (ix1 e) ⟨List.idxOf (⟨0, h0⟩ : Fin 1) (dims1 N E wf).startIndexMap,
        List.idxOf_lt_length_iff.2 (List.mem_singleton.mpr (Fin.ext rfl))⟩ = ix2 e (0 : Fin 1) := by
      funext b; refine Fin.ext ?_
      match b with
      | ⟨0, _⟩ => rfl
      | ⟨1, _⟩ => rfl
    rw [hsi]
    rfl

end Cert.LibGather1

end
-- ==== Proof.LawRead.lean ====
/-
  The array operations of a graph-convolution layer read at one entry, over arbitrary arrays: the index column of
  a list of words; a word that is not negative is left as it is by the wrap; the zero array and the two bias
  forms (a row cast from a list, a list broadcast to a row and down the rows); a per-entry factor broadcast along
  a row; a list cast to a column; the matrix products as sums over the contraction coordinate. And the three
  gather and scatter records of the program are the row gather, the list gather and the row accumulation whose
  entries are computed once for all extents.
-/
import proofs.«169896_j60378650247170_2_alg».proof.Proof.RefValue
import proofs.«169896_j60378650247170_2_alg».proof.Proof.KerValue
import proofs.«169896_j60378650247170_2_alg».proof.Proof.LibRowGather
import proofs.«169896_j60378650247170_2_alg».proof.Proof.LibRowScatter
import proofs.«169896_j60378650247170_2_alg».proof.Proof.LibGather1
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Law

open Cert.ReferenceIdeal Cert.ReferenceIdeal.Gen Idealize.ShloMosaic Idealize.ShloMosaic.ValueIdx

/-! ## The program's records are the general ones -/

/-- The row gather's record. -/
theorem gatherRows_eq : gather_S100000x128_S1700000x1_S1700000x128_1_0_n_n_0_1_1128
    = Cert.LibRowGather.dims2 100000 1700000 128 gather_S100000x128_S1700000x1_S1700000x128_1_0_n_n_0_1_1128_wf := rfl

/-- The list gather's record. -/
theorem gatherList_eq : gather_S100000_S1700000x1_S1700000_n_0_n_n_0_1_1
    = Cert.LibGather1.dims1 100000 1700000 gather_S100000_S1700000x1_S1700000_n_0_n_n_0_1_1_wf := rfl

/-- The row accumulation's record. -/
theorem scatterRows_eq : scatter_S100000x128_S1700000x1_S1700000x128_1_0_0_1
    = Cert.LibRowScatter.sdims2 100000 1700000 128 scatter_S100000x128_S1700000x1_S1700000x128_1_0_0_1_wf := rfl

/-! ## Index words -/

/-- The index column of a list of words holds, at `(e, 0)`, word `e`. -/
theorem col_apply {α : Type} (s : S1700000.Idx → α) (e : Fin 1700000) :
    broadcastInDim S1700000x1 ![0] bcast_S1700000_S1700000x1_0 s (ix2 e (0 : Fin 1)) = s (ix1 e) :=
  broadcastInDim_apply _ bcast_S1700000_S1700000x1_0 s (ix2 e (0 : Fin 1)) (ix1 e) (fun a => match a with
    | ⟨0, _⟩ => by show e.val = if (1700000 : Nat) = 1 then 0 else e.val; rw [if_neg (by decide)])

/-- A word that, read signed, is not negative is left as it is by the wrap. -/
theorem wrap_of_nonneg (s : IVec S1700000 32) (e : Fin 1700000) (h : 0 ≤ (s (ix1 e)).toInt) :
    RV.wrap s (ix1 e) = s (ix1 e) := by
  show Scalar.select (IntOp.cmpi .slt (s (ix1 e)) 0#32) (IntOp.addi (s (ix1 e)) 100000#32) (s (ix1 e)) = _
  have hc : IntOp.cmpi .slt (s (ix1 e)) 0#32 = 0#1 := by
    show BitVec.ofBool ((s (ix1 e)).slt 0#32) = 0#1
    have : (s (ix1 e)).slt 0#32 = false := by
      rw [BitVec.slt_eq_decide]
      exact decide_eq_false (by rw [BitVec.toInt_zero]; omega)
    rw [this]; rfl
  rw [hc, select_zero]

/-- A word that names row `j` (read signed it is `j`, below the row count) is clamped to `j`. -/
theorem row_of_eq (b : BitVec 32) (j : Fin 100000) (h : b.toInt = (j.val : Int)) :
    Cert.LibRowGather.row 100000 (by decide) b = j := by
  apply Fin.ext
  show min b.toInt.toNat (100000 - 1) = j.val
  have := j.isLt
  omega

/-- The list gather's position is the row gather's row. -/
theorem pos_eq_row (b : BitVec 32) :
    Cert.LibGather1.pos 100000 (by decide) b = Cert.LibRowGather.row 100000 (by decide) b := rfl

/-! ## Zero, bias, factors -/

/-- The zero array is zero everywhere. -/
theorem zeros_apply (i : S100000x128.Idx) :
    broadcastInDim S100000x128 ![] bcast_S_S100000x128 (constant (F := Ideal) S_ .f32 0x00000000#32) i = 0 := by
  show Ideal.ofBits .f32 0x00000000#32 = 0
  exact Ideal.ofBits_zero_f32

/-- The bias list broadcast to a row and down the rows reads, at `(j, c)`, entry `c` of the list. -/
theorem biasBcast_apply (b : FVec Ideal S128 .f32) (j : Fin 100000) (c : Fin 128) :
    broadcastInDim S100000x128 ![0, 1] bcast_S1x128_S100000x128_0_1 (broadcastInDim S1x128 ![1] bcast_S128_S1x128_1 b) (ix2 j c)
      = b (ix1 c) := by
  refine (broadcastInDim_apply _ bcast_S1x128_S100000x128_0_1 _ (ix2 j c) (ix2 (0 : Fin 1) c) (fun a => match a with
    | ⟨0, _⟩ => by show (0 : Nat) = if (1 : Nat) = 1 then 0 else j.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun a => match a with
    | ⟨0, _⟩ => by show c.val = if (128 : Nat) = 1 then 0 else c.val; rw [if_neg (by decide)])

/-- The output bias likewise, for 64 columns. -/
theorem biasBcast64_apply (b : FVec Ideal S64 .f32) (j : Fin 100000) (c : Fin 64) :
    broadcastInDim S100000x64 ![0, 1] bcast_S1x64_S100000x64_0_1 (broadcastInDim S1x64 ![1] bcast_S64_S1x64_1 b) (ix2 j c)
      = b (ix1 c) := by
  refine (broadcastInDim_apply _ bcast_S1x64_S100000x64_0_1 _ (ix2 j c) (ix2 (0 : Fin 1) c) (fun a => match a with
    | ⟨0, _⟩ => by show (0 : Nat) = if (1 : Nat) = 1 then 0 else j.val; rw [if_pos rfl]
    | ⟨1, _⟩ => by show c.val = if (64 : Nat) = 1 then 0 else c.val; rw [if_neg (by decide)])).trans ?_
  exact broadcastInDim_apply _ bcast_S64_S1x64_1 b (ix2 (0 : Fin 1) c) (ix1 c) (fun a => match a with
    | ⟨0, _⟩ => by show c.val = if (64 : Nat) = 1 then 0 else c.val; rw [if_neg (by decide)])

/-- A per-entry factor made a column and broadcast along the rows reads, at `(e, c)`, the factor of entry `e`. -/
theorem factorBcast_apply (f : FVec Ideal S1700000 .f32) (e : Fin 1700000) (c : Fin 128) :
    broadcastInDim S1700000x128 ![0, 1] bcast_S1700000x1_S1700000x128_0_1
      (broadcastInDim S1700000x1 ![0] bcast_S1700000_S1700000x1_0 f) (ix2 e c) = f (ix1 e) := by
  refine (broadcastInDim_apply _ bcast_S1700000x1_S1700000x128_0_1 _ (ix2 e c) (ix2 e (0 : Fin 1)) (fun a => match a with
    | ⟨0, _⟩ => by show e.val = if (1700000 : Nat) = 1 then 0 else e.val; rw [if_neg (by decide)]
    | ⟨1, _⟩ => by show (0 : Nat) = if (1 : Nat) = 1 then 0 else c.val; rw [if_pos rfl])).trans ?_
  exact col_apply f e

/-- A list cast to a column reads, at `(p, 0)`, entry `p` of the list. -/
theorem shapeCast_a_a1_apply {α : Type} {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-! ## The matrix products -/

/-- The left operand's row coordinate at output `i` is `i`'s row. -/
theorem dot128_lhs0 (i : S100000x128.Idx) (r : dot_S100000x128_S128x128_S100000x128_1_0_0_1_n_n.contr.Idx) : (dot_S100000x128_S128x128_S100000x128_1_0_0_1_n_n.lhsIdx i r 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

/-- The right operand's column coordinate at output `i` is `i`'s column. -/
theorem dot128_rhs1 (i : S100000x128.Idx) (r : dot_S100000x128_S128x128_S100000x128_1_0_0_1_n_n.contr.Idx) : (dot_S100000x128_S128x128_S100000x128_1_0_0_1_n_n.rhsIdx i r 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The matrix product read at `(p, q)`: the sum over the contraction coordinate of row `p` of the left operand
    times column `q` of the right. -/
theorem dot128_at (x : FVec Ideal S100000x128 .f32) (w : FVec Ideal S128x128 .f32) (p : Fin 100000) (q : Fin 128) :
    Host.dotGeneral (F := Ideal) dot_S100000x128_S128x128_S100000x128_1_0_0_1_n_n none x w (ix2 p q) = ∑ k : Fin 128, x (ix2 p k) * w (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact dot128_lhs0 _ _
    | ⟨1, _⟩ => exact (dot_S100000x128_S128x128_S100000x128_1_0_0_1_n_n.lhsIdx_val_of_single rfl _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (dot_S100000x128_S128x128_S100000x128_1_0_0_1_n_n.rhsIdx_val_of_single rfl _ _).trans hk
    | ⟨1, _⟩ => exact dot128_rhs1 _ _)
  rw [el, er]

/-- The left operand's row coordinate at output `i` is `i`'s row. -/
theorem dot64_lhs0 (i : S100000x64.Idx) (r : dot_S100000x128_S128x64_S100000x64_1_0_0_1_n_n.contr.Idx) : (dot_S100000x128_S128x64_S100000x64_1_0_0_1_n_n.lhsIdx i r 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl

/-- The right operand's column coordinate at output `i` is `i`'s column. -/
theorem dot64_rhs1 (i : S100000x64.Idx) (r : dot_S100000x128_S128x64_S100000x64_1_0_0_1_n_n.contr.Idx) : (dot_S100000x128_S128x64_S100000x64_1_0_0_1_n_n.rhsIdx i r 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The matrix product read at `(p, q)`: the sum over the contraction coordinate of row `p` of the left operand
    times column `q` of the right. -/
theorem dot64_at (x : FVec Ideal S100000x128 .f32) (w : FVec Ideal S128x64 .f32) (p : Fin 100000) (q : Fin 64) :
    Host.dotGeneral (F := Ideal) dot_S100000x128_S128x64_S100000x64_1_0_0_1_n_n none x w (ix2 p q) = ∑ k : Fin 128, x (ix2 p k) * w (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact dot64_lhs0 _ _
    | ⟨1, _⟩ => exact (dot_S100000x128_S128x64_S100000x64_1_0_0_1_n_n.lhsIdx_val_of_single rfl _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (dot_S100000x128_S128x64_S100000x64_1_0_0_1_n_n.rhsIdx_val_of_single rfl _ _).trans hk
    | ⟨1, _⟩ => exact dot64_rhs1 _ _)
  rw [el, er]

end Cert.ReferenceIdeal.Law

end
-- ==== Proof.LawFactor.lean ====
/-
  The node factor: the inverse square root of the degree where the degree is positive, zero elsewhere. Whatever
  the degree is, the factor is a nonnegative real: at a positive real degree it is the inverse of a square root,
  at an infinite degree the inverse square root is zero, and everywhere else the factor is zero by the selection.
-/
import proofs.«169896_j60378650247170_2_alg».proof.Proof.RefValue
import Idealize.ShloMosaic.Lib.ValueIdx
import Idealize.ShloMosaic.PureOps.Ideal.Laws

noncomputable section

namespace Cert.ReferenceIdeal.Law

open Cert.ReferenceIdeal Cert.ReferenceIdeal.Gen Idealize.ShloMosaic Idealize.ShloMosaic.ValueIdx

/-- "Greater than" on the extended reals, as a one-bit word. -/
theorem cmp_ogt (x y : EReal) : Ideal.cmp .ogt x y = BitVec.ofBool (decide (y < x)) := rfl

/-- The inverse square root of a positive extended real is nonnegative and finite. -/
theorem rsqrt_nonneg_ne_top (x : EReal) (h : 0 < x) : 0 ≤ Ideal.rsqrt x ∧ Ideal.rsqrt x ≠ ⊤ := by
  induction x using EReal.rec with
  | bot => exact absurd h (not_lt.mpr bot_le)
  | top => rw [Ideal.rsqrt_top]; exact ⟨le_refl _, EReal.zero_ne_top⟩
  | coe r =>
    have hr : 0 < r := EReal.coe_pos.mp h
    rw [Ideal.rsqrt_coe, if_neg (not_lt.mpr hr.le), if_neg hr.ne']
    exact ⟨EReal.coe_nonneg.mpr (inv_nonneg.mpr (Real.sqrt_nonneg r)), EReal.coe_ne_top _⟩

/-- The inverse square root where the argument is positive, zero elsewhere, is nonnegative and finite. -/
theorem selectRsqrt_nonneg_ne_top (x : EReal) :
    0 ≤ Scalar.select (Ideal.cmp .ogt x 0) (Ideal.rsqrt x) 0
      ∧ Scalar.select (Ideal.cmp .ogt x 0) (Ideal.rsqrt x) 0 ≠ ⊤ := by
  rw [cmp_ogt]
  by_cases h : (0 : EReal) < x
  · rw [decide_eq_true h, show BitVec.ofBool true = 1#1 from rfl, select_one]
    exact rsqrt_nonneg_ne_top x h
  · rw [decide_eq_false h, show BitVec.ofBool false = 0#1 from rfl, select_zero]
    exact ⟨le_refl _, EReal.zero_ne_top⟩

/-- The list of zeros is zero at every entry. -/
theorem zeroList_apply (i : S100000.Idx) :
    broadcastInDim S100000 ![] bcast_S_S100000 (constant (F := Ideal) S_ .f32 0x00000000#32) i = 0 := by
  show Ideal.ofBits .f32 0x00000000#32 = 0
  exact Ideal.ofBits_zero_f32

/-- The selection that defines the node factor, read at an entry. -/
theorem factor_apply (g : FVec Ideal S100000 .f32) (i : S100000.Idx) :
    select (cmpf (F := Ideal) .ogt g (broadcastInDim S100000 ![] bcast_S_S100000 (constant (F := Ideal) S_ .f32 0x00000000#32)))
      (Host.rsqrt (F := Ideal) g) (broadcastInDim S100000 ![] bcast_S_S100000 (id (constant (F := Ideal) S_ .f32 0x00000000#32))) i
    = Scalar.select (Ideal.cmp .ogt (g i) 0) (Ideal.rsqrt (g i)) 0 := by
  rw [select_apply, cmpf_apply]
  show Scalar.select (Ideal.cmp .ogt (g i) (broadcastInDim S100000 ![] bcast_S_S100000 (constant (F := Ideal) S_ .f32 0x00000000#32) i)) (Ideal.rsqrt (g i))
      (broadcastInDim S100000 ![] bcast_S_S100000 (constant (F := Ideal) S_ .f32 0x00000000#32) i) = _
  rw [zeroList_apply]

/-- The node factor of every node is nonnegative and finite. -/
theorem dinv_nonneg_ne_top (x7 : IVec S2x1600000 32) (p : Fin 100000) :
    0 ≤ RV.dinv x7 (ix1 p) ∧ RV.dinv x7 (ix1 p) ≠ ⊤ := by
  unfold RV.dinv
  rw [factor_apply]
  exact selectRsqrt_nonneg_ne_top _

end Cert.ReferenceIdeal.Law

end
-- ==== Proof.LibSumScale.lean ====
/-
  Scaling a finite sum of extended reals by a nonnegative finite factor.

  On the extended reals multiplication does not distribute over addition in general (⊤ + ⊥ = ⊥, and a negative
  factor swaps the two infinities), but a factor `v` with `0 ≤ v` and `v ≠ ⊤` does distribute over every sum:
  it is a nonnegative real, which sends ⊤ to ⊤ or 0, ⊥ to ⊥ or 0, and keeps the order of the infinities. So the
  factor moves inside a finite sum, whatever the summands are.
-/
import Idealize.ShloMosaic.PureOps.Ideal

noncomputable section

namespace Cert.LibSumScale

/-- `(Σ_{u ∈ s} f u) · v = Σ_{u ∈ s} f u · v` for a factor `0 ≤ v ≠ ⊤`, by induction on the index set. -/
theorem sum_mul {ι : Type} (s : Finset ι) (f : ι → EReal) {v : EReal} (h0 : 0 ≤ v) (ht : v ≠ ⊤) :
    (∑ u ∈ s, f u) * v = ∑ u ∈ s, f u * v := by
  classical
  induction s using Finset.induction_on with
  | empty => simp
  | insert a s ha ih =>
    rw [Finset.sum_insert ha, Finset.sum_insert ha, EReal.right_distrib_of_nonneg_of_ne_top h0 ht, ih]

/-- The same with a zero the sum is added to: `(0 + Σ f) · v = 0 + Σ f · v`. -/
theorem zero_add_sum_mul {ι : Type} (s : Finset ι) (f : ι → EReal) {v : EReal} (h0 : 0 ≤ v) (ht : v ≠ ⊤) :
    (0 + ∑ u ∈ s, f u) * v = 0 + ∑ u ∈ s, f u * v := by
  rw [zero_add, zero_add, sum_mul s f h0 ht]

end Cert.LibSumScale

end
-- ==== Proof.LayerLaw.lean ====
/-
  One graph-convolution layer, computed two ways, is one function.

  Every entry `e` of the edge list carries the product row of its source node into its destination node. The
  reference scales the carried row by the entry's coefficient, the node factor at the source times the node factor
  at the destination, and adds the scaled rows up at each destination. The kernel program scales every product row
  by its own node's factor before it is carried, adds the carried rows up at each destination, and scales the sum
  by the destination's factor. At output entry `(j, c)` both sums run over the same set: the entries whose
  destination word names node `j`, at column `c`. For such an entry the destination word is a node number, so
  the wrap and the clamp leave it and the destination factor in the coefficient is the factor of `j`. The factor
  of `j` is a nonnegative real, so it moves inside the sum; the summands then agree by associativity. Bias and
  cut-off at zero are the same on both sides.
-/
import proofs.«169896_j60378650247170_2_alg».proof.Proof.LawRead
import proofs.«169896_j60378650247170_2_alg».proof.Proof.LawFactor
import proofs.«169896_j60378650247170_2_alg».proof.Proof.LibSumScale

noncomputable section

open scoped BigOperators

namespace Cert.ReferenceIdeal.Law

open Cert.ReferenceIdeal Cert.ReferenceIdeal.Gen Idealize.ShloMosaic Idealize.ShloMosaic.ValueIdx

/-- The array of zeros the rows are added into. -/
abbrev zeros : FVec Ideal S100000x128 .f32 :=
  broadcastInDim S100000x128 ![] bcast_S_S100000x128 (constant (F := Ideal) S_ .f32 0x00000000#32)

/-- It is zero everywhere. -/
theorem zeros_at (i : S100000x128.Idx) : zeros i = 0 := zeros_apply i

/-- The node a word names once wrapped, read signed and clamped. -/
def nodeOf (s : IVec S1700000 32) (e : Fin 1700000) : Fin 100000 :=
  Cert.LibRowGather.row 100000 (by decide) (RV.wrap s (ix1 e))

/-- The kernel program's layer over arbitrary source words, destination words and node factors. -/
def kerLayerG (X : FVec Ideal S100000x128 .f32) (W : FVec Ideal S128x128 .f32) (b : FVec Ideal S128 .f32)
    (s d : IVec S1700000 32) (dv : FVec Ideal S100000 .f32) : FVec Ideal S100000x128 .f32 :=
  Cert.Spec.scaleBiasRelu
    (Host.scatterAdd (F := Ideal) scatter_S100000x128_S1700000x1_S1700000x128_1_0_0_1 zeros (RV.col d)
      (Host.gather gather_S100000x128_S1700000x1_S1700000x128_1_0_n_n_0_1_1128
        (Cert.Spec.scaledRows X W (shapeCast ⟨2, ![100000, 1]⟩ dv (by decide))) (RV.col (RV.wrap s))))
    (shapeCast ⟨2, ![100000, 1]⟩ dv (by decide))
    (shapeCast ⟨2, ![1, 128]⟩ b (by decide))

/-- The reference's layer over arbitrary source words, destination words and node factors. -/
def refLayerG (X : FVec Ideal S100000x128 .f32) (W : FVec Ideal S128x128 .f32) (b : FVec Ideal S128 .f32)
    (s d : IVec S1700000 32) (dv : FVec Ideal S100000 .f32) : FVec Ideal S100000x128 .f32 :=
  maximumf (F := Ideal)
    (addf (F := Ideal)
      (Host.scatterAdd (F := Ideal) scatter_S100000x128_S1700000x1_S1700000x128_1_0_0_1 zeros (RV.col d)
        (mulf (F := Ideal)
          (Host.gather gather_S100000x128_S1700000x1_S1700000x128_1_0_n_n_0_1_1128
            (Host.dotGeneral (F := Ideal) dot_S100000x128_S128x128_S100000x128_1_0_0_1_n_n none X W) (RV.col (RV.wrap s)))
          (broadcastInDim S1700000x128 ![0, 1] bcast_S1700000x1_S1700000x128_0_1
            (broadcastInDim S1700000x1 ![0] bcast_S1700000_S1700000x1_0
              (mulf (F := Ideal)
                (Host.gather gather_S100000_S1700000x1_S1700000_n_0_n_n_0_1_1 dv (RV.col (RV.wrap s)))
                (Host.gather gather_S100000_S1700000x1_S1700000_n_0_n_n_0_1_1 dv (RV.col (RV.wrap d))))))))
      (broadcastInDim S100000x128 ![0, 1] bcast_S1x128_S100000x128_0_1 (broadcastInDim S1x128 ![1] bcast_S128_S1x128_1 b)))
    zeros

/-- The kernel program's layer is the general one at the edge list's words and the degree's factors. -/
theorem KV_layer_eq (X : FVec Ideal S100000x128 .f32) (W : FVec Ideal S128x128 .f32) (b : FVec Ideal S128 .f32)
    (x7 : IVec S2x1600000 32) : KV.layer X W b x7 = kerLayerG X W b (RV.srcW x7) (RV.dstW x7) (RV.dinv x7) := by
  unfold KV.layer KV.dcol kerLayerG
  rfl

/-- The reference's layer likewise. -/
theorem RV_layer_eq (X : FVec Ideal S100000x128 .f32) (W : FVec Ideal S128x128 .f32) (b : FVec Ideal S128 .f32)
    (x7 : IVec S2x1600000 32) : RV.layer X W b x7 = refLayerG X W b (RV.srcW x7) (RV.dstW x7) (RV.dinv x7) := by
  unfold RV.layer RV.coef refLayerG
  rfl

/-! ## What is carried along an entry -/

/-- The index column of the words read at `(e, 0)`. -/
theorem rvcol_apply (s : IVec S1700000 32) (e : Fin 1700000) : RV.col s (ix2 e (0 : Fin 1)) = s (ix1 e) := by
  unfold RV.col
  exact col_apply s e

/-- Kernel side: entry `(e, c)` of the carried array is the source's product row at `c`, scaled by the source's factor. -/
theorem carriedScaled_apply (X : FVec Ideal S100000x128 .f32) (W : FVec Ideal S128x128 .f32) (s : IVec S1700000 32)
    (dv : FVec Ideal S100000 .f32) (e : Fin 1700000) (c : Fin 128) :
    Host.gather gather_S100000x128_S1700000x1_S1700000x128_1_0_n_n_0_1_1128
        (Cert.Spec.scaledRows X W (shapeCast ⟨2, ![100000, 1]⟩ dv (by decide))) (RV.col (RV.wrap s)) (ix2 e c)
      = (0 + ∑ k : Fin 128, X (ix2 (nodeOf s e) k) * W (ix2 k c)) * dv (ix1 (nodeOf s e)) := by
  rw [gatherRows_eq, Cert.LibRowGather.gather2_apply (by decide), rvcol_apply]
  show (0 + ∑ k : Fin 128, X (ix2 (nodeOf s e) k) * W (ix2 k c))
      * shapeCast ⟨2, ![100000, 1]⟩ dv (by decide) (ix2 (nodeOf s e) (0 : Fin 1)) = _
  rw [shapeCast_a_a1_apply]

/-- Reference side: entry `(e, c)` of the carried array is the source's product row at `c`. -/
theorem carriedProd_apply (X : FVec Ideal S100000x128 .f32) (W : FVec Ideal S128x128 .f32) (s : IVec S1700000 32)
    (e : Fin 1700000) (c : Fin 128) :
    Host.gather gather_S100000x128_S1700000x1_S1700000x128_1_0_n_n_0_1_1128
        (Host.dotGeneral (F := Ideal) dot_S100000x128_S128x128_S100000x128_1_0_0_1_n_n none X W) (RV.col (RV.wrap s)) (ix2 e c)
      = ∑ k : Fin 128, X (ix2 (nodeOf s e) k) * W (ix2 k c) := by
  rw [gatherRows_eq, Cert.LibRowGather.gather2_apply (by decide), rvcol_apply]
  exact dot128_at X W (nodeOf s e) c

/-- The node factors gathered at an entry's word: the factor of the node the word names. -/
theorem factorAt_apply (dv : FVec Ideal S100000 .f32) (s : IVec S1700000 32) (e : Fin 1700000) :
    Host.gather gather_S100000_S1700000x1_S1700000_n_0_n_n_0_1_1 dv (RV.col (RV.wrap s)) (ix1 e) = dv (ix1 (nodeOf s e)) := by
  rw [gatherList_eq, Cert.LibGather1.gather1_apply (by decide), rvcol_apply]
  rfl

/-! ## Where an entry lands -/

/-- Entry `(e, c')` lands on `(j, c)` iff the destination word of `e`, read signed, is `j`, and `c' = c`. -/
theorem lands_iff (d : IVec S1700000 32) (j : Fin 100000) (c : Fin 128) (e : Fin 1700000) (c' : Fin 128) :
    scatter_S100000x128_S1700000x1_S1700000x128_1_0_0_1.resultIdx? (ix2 e c') (RV.col d) = some (ix2 j c)
      ↔ (d (ix1 e)).toInt = (j.val : Int) ∧ c' = c := by
  rw [scatterRows_eq, Cert.LibRowScatter.resultIdx2]
  show ((RV.col d (ix2 e (0 : Fin 1))).toInt = (j.val : Int) ∧ c'.val = c.val) ↔ _
  rw [rvcol_apply, Fin.val_inj]

/-- An entry that lands on row `j` has destination node `j`. -/
theorem nodeOf_of_landing (d : IVec S1700000 32) (j : Fin 100000) (e : Fin 1700000)
    (h : (d (ix1 e)).toInt = (j.val : Int)) : nodeOf d e = j := by
  unfold nodeOf
  rw [wrap_of_nonneg d e (by rw [h]; exact Int.natCast_nonneg _)]
  exact row_of_eq _ j h

/-! ## The law -/

/-- Rows added into zeros, then scaled at the destination by a nonnegative finite factor `v`, are the rows with
    every landing summand scaled by `v` added into zeros: the factor moves inside the sum over the landing
    entries. For every accumulation, whatever its shapes. -/
theorem scatterAdd_scale {s si su : Shape} (D : ScatterDims s si su) {w : Nat} (x : s.Idx → EReal) (idx : IVec si w)
    (UK UR : su.Idx → EReal) (i : s.Idx) (hx : x i = 0) {v : EReal} (h0 : 0 ≤ v) (ht : v ≠ ⊤)
    (h : ∀ u, D.resultIdx? u idx = some i → UK u * v = UR u) :
    Ideal.hostScatterAdd D x idx UK i * v = Ideal.hostScatterAdd D x idx UR i := by
  unfold Ideal.hostScatterAdd
  show (x i + ∑ u ∈ Finset.univ.filter (fun u => D.resultIdx? u idx = some i), UK u) * v
    = x i + ∑ u ∈ Finset.univ.filter (fun u => D.resultIdx? u idx = some i), UR u
  rw [hx, Cert.LibSumScale.zero_add_sum_mul _ _ h0 ht]
  exact congrArg (0 + ·) (Finset.sum_congr rfl fun u hu => h u (Finset.mem_filter.mp hu).2)

/-- The cut-off, biased, scaled entry of the kernel side, spelt out. -/
theorem scaleBiasRelu_apply (A : S100000x128.Idx → EReal) (v : (⟨2, ![100000, 1]⟩ : Shape).Idx → EReal) (b : (⟨2, ![1, 128]⟩ : Shape).Idx → EReal)
    (j : Fin 100000) (c : Fin 128) :
    Cert.Spec.scaleBiasRelu A v b (ix2 j c) = max (A (ix2 j c) * v (ix2 j (0 : Fin 1)) + b (ix2 (0 : Fin 1) c)) 0 := rfl

/-- The host's accumulation at the ideal instance is the exact one. -/
theorem scatterAdd_eq {s si su : Shape} {φ : FTy} {w : Nat} (D : ScatterDims s si su) (x : FVec Ideal s φ)
    (idx : IVec si w) (U : FVec Ideal su φ) :
    Host.scatterAdd (F := Ideal) D x idx U = Ideal.hostScatterAdd D x idx U := rfl

/-- The same under a bias and a cut-off at zero. -/
theorem relu_scatterAdd_scale {s si su : Shape} (D : ScatterDims s si su) {w : Nat} (x : s.Idx → EReal) (idx : IVec si w)
    (UK UR : su.Idx → EReal) (i : s.Idx) (hx : x i = 0) {v : EReal} (h0 : 0 ≤ v) (ht : v ≠ ⊤) (β : EReal)
    (h : ∀ u, D.resultIdx? u idx = some i → UK u * v = UR u) :
    max (Ideal.hostScatterAdd D x idx UK i * v + β) 0 = max (Ideal.hostScatterAdd D x idx UR i + β) 0 := by
  rw [scatterAdd_scale D x idx UK UR i hx h0 ht h]

/-- THE LAW over arbitrary words and nonnegative finite node factors. -/
theorem layerG_eq (X : FVec Ideal S100000x128 .f32) (W : FVec Ideal S128x128 .f32) (b : FVec Ideal S128 .f32)
    (s d : IVec S1700000 32) (dv : FVec Ideal S100000 .f32) (hdv : ∀ p : Fin 100000, 0 ≤ dv (ix1 p) ∧ dv (ix1 p) ≠ ⊤) :
    kerLayerG X W b s d dv = refLayerG X W b s d dv := by
  funext i
  obtain ⟨j, c, rfl⟩ : ∃ (j : Fin 100000) (c : Fin 128), i = ix2 j c := ⟨i 0, i 1, eq_ix2 i⟩
  unfold kerLayerG refLayerG
  rw [scaleBiasRelu_apply, maximumf_apply, addf_apply, zeros_at, biasBcast_apply, shapeCast_a_a1_apply,
    shapeCast_a_1a_apply, scatterAdd_eq, scatterAdd_eq]
  refine relu_scatterAdd_scale scatter_S100000x128_S1700000x1_S1700000x128_1_0_0_1 zeros (RV.col d) _ _ (ix2 j c) (zeros_at _)
    (hdv j).1 (hdv j).2 _ (fun u hu => ?_)
  obtain ⟨e, c', rfl⟩ : ∃ (e : Fin 1700000) (c' : Fin 128), u = ix2 e c' := ⟨u 0, u 1, eq_ix2 u⟩
  obtain ⟨he, -⟩ := (lands_iff d j c e c').mp hu
  rw [carriedScaled_apply, mulf_apply, carriedProd_apply, factorBcast_apply, mulf_apply, factorAt_apply, factorAt_apply,
    nodeOf_of_landing d j e he, zero_add, mul_assoc]

/-- One layer of the kernel program is one layer of the reference. -/
theorem layer_eq (X : FVec Ideal S100000x128 .f32) (W : FVec Ideal S128x128 .f32) (b : FVec Ideal S128 .f32)
    (x7 : IVec S2x1600000 32) : KV.layer X W b x7 = RV.layer X W b x7 := by
  rw [KV_layer_eq, RV_layer_eq]
  exact layerG_eq X W b _ _ _ (dinv_nonneg_ne_top x7)

/-- The kernel program's result is the reference's: two equal layers, then the same product and bias. -/
theorem out_eq (x0 : FVec Ideal S100000x128 .f32) (x1 : FVec Ideal S128x128 .f32) (x2 : FVec Ideal S128 .f32)
    (x3 : FVec Ideal S128x128 .f32) (x4 : FVec Ideal S128 .f32) (x5 : FVec Ideal S128x64 .f32) (x6 : FVec Ideal S64 .f32)
    (x7 : IVec S2x1600000 32) : KV.out x0 x1 x2 x3 x4 x5 x6 x7 = RV.out x0 x1 x2 x3 x4 x5 x6 x7 := by
  unfold KV.out RV.out
  rw [layer_eq, layer_eq]
  generalize RV.layer (RV.layer x0 x1 x2 x7) x3 x4 x7 = H
  funext i
  obtain ⟨j, c, rfl⟩ : ∃ (j : Fin 100000) (c : Fin 64), i = ix2 j c := ⟨i 0, i 1, eq_ix2 i⟩
  rw [addf_apply, dot64_at, biasBcast64_apply]
  show (0 + ∑ k : Fin 128, H (ix2 j k) * x5 (ix2 k c)) + shapeCast ⟨2, ![1, 64]⟩ x6 (by decide) (ix2 (0 : Fin 1) c) = _
  rw [shapeCast_a_1a_apply, zero_add]

end Cert.ReferenceIdeal.Law

end
-- ==== Proof.lean ====
/-
  A two-layer graph convolution with an output layer, as a tiled kernel program against its plain reference.

  Both programs compute, from node features, three weight matrices with their biases and an edge list: per layer,
  out[j] = relu( Σ over the entries e with destination j of dinv[src e] · dinv[j] · (X·W)[src e]  +  b ), the entries
  being the edges and one self-loop per node, dinv the inverse square root of the number of entries arriving at a
  node (zero where none arrives); then the product with the output weights plus the output bias.

  The reference scales every gathered row by the coefficient dinv[src e] · dinv[dst e] and adds the scaled rows into
  their destination rows. The kernel program scales the product rows by dinv of their OWN node before the gather, adds
  the gathered rows, and scales each destination row by dinv[j] afterwards. Entry by entry over the extended reals
  the two agree: an entry that lands on row j has destination j, so its coefficient is dinv[src e] · dinv[j];
  multiplication is associative; and the factor dinv[j], a nonnegative real, distributes over the sum of the landing
  rows whatever their values (`Law.layer_eq`, `Law.out_eq`). A change of float format is the identity and a matrix
  product into a zero accumulator is the plain sum of products, so no further difference is left.

  The kernel program's value is read off its run (`KRun.run`): the result buffer ends at the fold of @main's segments
  over the launch memory, which `KChain.value` computes boundary by boundary as `KV.out` of the argument arrays. The
  reference's run (`RefRun.run`) ends at `RV.out` of the argument arrays. The frames of the two kernel programs are the
  generated ones; the reference's frame is its run with the result dropped. The idealization rewrote no operation.
-/
import proofs.«169896_j60378650247170_2_alg».proof.Defs
import proofs.«169896_j60378650247170_2_alg».proof.Proof.Gen.Kernel
import proofs.«169896_j60378650247170_2_alg».proof.Proof.Gen.Kernel.Skeleton
import proofs.«169896_j60378650247170_2_alg».proof.Proof.Gen.Kernel.Launch
import proofs.«169896_j60378650247170_2_alg».proof.Proof.Gen.Kernel.Points
import proofs.«169896_j60378650247170_2_alg».proof.Proof.Gen.Kernel.Frame
import proofs.«169896_j60378650247170_2_alg».proof.Proof.Gen.KernelIdeal
import proofs.«169896_j60378650247170_2_alg».proof.Proof.Gen.KernelIdeal.Skeleton
import proofs.«169896_j60378650247170_2_alg».proof.Proof.Gen.KernelIdeal.Launch
import proofs.«169896_j60378650247170_2_alg».proof.Proof.Gen.KernelIdeal.Points
import proofs.«169896_j60378650247170_2_alg».proof.Proof.Gen.KernelIdeal.Frame
import proofs.«169896_j60378650247170_2_alg».proof.Proof.Gen.ReferenceIdeal
import proofs.«169896_j60378650247170_2_alg».proof.Proof.Gen.Pre_finite_inputs
import proofs.«169896_j60378650247170_2_alg».proof.Proof.KRun
import proofs.«169896_j60378650247170_2_alg».proof.Proof.KChain
import proofs.«169896_j60378650247170_2_alg».proof.Proof.RefRun
import proofs.«169896_j60378650247170_2_alg».proof.Proof.LayerLaw
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- The idealization rewrote no operation. -/
theorem preserves : Cert.preserves_Kernel_KernelIdeal := trivial

/-- From memories that agree on the arguments both idealized programs end with the same result: the kernel
    program's `KV.out` of the arguments is the reference's `RV.out` of them (`Law.out_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W11 m ρ c (Proc.devRef .tc Cert.KernelIdeal.main_v43),
    Cert.KernelIdeal.KRun.run (F := Ideal) m ρ, ?_⟩
  refine (θ_run Cert.ReferenceIdeal.defs _ _).mono (fun _ h c => ⟨(h c).1.trans ?_, (h c).2⟩)
    (Cert.ReferenceIdeal.RefRun.run m' ρ')
  show _ = Cert.KernelIdeal.Gen.W11 m ρ c (Proc.devRef .tc Cert.KernelIdeal.main_v43)
  rw [Cert.KernelIdeal.KChain.value m ρ c, Cert.ReferenceIdeal.Law.out_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
